-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 32
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1024x1024, .f32⟩
  | .hbm, ⟨11, _⟩ => ⟨S1x1024, .f32⟩
  | .hbm, ⟨12, _⟩ => ⟨S4096x1024, .f32⟩
  | .hbm, ⟨13, _⟩ => ⟨S1024x1024, .f32⟩
  | .hbm, ⟨14, _⟩ => ⟨S1x1024, .f32⟩
  | .hbm, ⟨15, _⟩ => ⟨S4096x1024, .f32⟩
  | .hbm, ⟨16, _⟩ => ⟨S1024x1024, .f32⟩
  | .hbm, ⟨17, _⟩ => ⟨S1x1024, .f32⟩
  | .hbm, ⟨18, _⟩ => ⟨S4096x1024, .f32⟩
  | .hbm, ⟨19, _⟩ => ⟨S2x2048x16x64, .f32⟩
  | .hbm, ⟨20, _⟩ => ⟨S2x16x2048x64, .f32⟩
  | .hbm, ⟨21, _⟩ => ⟨S2x2048x16x64, .f32⟩
  | .hbm, ⟨22, _⟩ => ⟨S2x16x2048x64, .f32⟩
  | .hbm, ⟨23, _⟩ => ⟨S2x2048x16x64, .f32⟩
  | .hbm, ⟨24, _⟩ => ⟨S2x16x2048x64, .f32⟩
  | .hbm, ⟨25, _⟩ => ⟨S2x16x2048x64, .f32⟩
  | .hbm, ⟨26, _⟩ => ⟨S2x2048x16x64, .f32⟩
  | .hbm, ⟨27, _⟩ => ⟨S4096x1024, .f32⟩
  | .hbm, ⟨28, _⟩ => ⟨S1024x1024, .f32⟩
  | .hbm, ⟨29, _⟩ => ⟨S1x1024, .f32⟩
  | .hbm, ⟨30, _⟩ => ⟨S4096x1024, .f32⟩
  | .hbm, ⟨31, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1x512x64, .f32⟩
  | .local _ .vmem, ⟨19, _⟩ => ⟨S1x1x512x64, .f32⟩
  | .local _ .vmem, ⟨20, _⟩ => ⟨S1x1x2048x64, .f32⟩
  | .local _ .vmem, ⟨21, _⟩ => ⟨S1x1x2048x64, .f32⟩
  | .local _ .vmem, ⟨22, _⟩ => ⟨S1x1x2048x64, .f32⟩
  | .local _ .vmem, ⟨23, _⟩ => ⟨S1x1x2048x64, .f32⟩
  | .local _ .vmem, ⟨24, _⟩ => ⟨S1x1x512x64, .f32⟩
  | .local _ .vmem, ⟨25, _⟩ => ⟨S1x1x512x64, .f32⟩
  | .local _ .vmem, ⟨26, _⟩ => ⟨S512x1024, .f32⟩
  | .local _ .vmem, ⟨27, _⟩ => ⟨S512x1024, .f32⟩
  | .local _ .vmem, ⟨28, _⟩ => ⟨S1024x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 16, 4], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S1x1x512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x1x512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S2x16x2048x64.size a
  hwx3_0 : ∀ i : grid3.Coords, EltTy.bits .f32 = 32 ∨ (Rect.block (s := S2x16x2048x64) S1x1x512x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x16x2048x64.size a
  hwx3_1 : ∀ i : grid3.Coords, EltTy.bits .f32 = 32 ∨ (Rect.block (s := S2x16x2048x64) S1x1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x16x2048x64.size a
  hwx3_2 : ∀ i : grid3.Coords, EltTy.bits .f32 = 32 ∨ (Rect.block (s := S2x16x2048x64) S1x1x2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512x64.size a ≤ S2x16x2048x64.size a
  hwx3_3 : ∀ i : grid3.Coords, EltTy.bits .f32 = 32 ∨ (Rect.block (s := S2x16x2048x64) S1x1x512x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .f32 = 32 ∨ (Rect.block (s := S4096x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v18) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v21) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x64, .f32⟩
  | .hbm, ⟨39, _⟩ => ⟨S2x2048x16x64, .f32⟩
  | .hbm, ⟨40, _⟩ => ⟨S2x2048x1024, .f32⟩
  | .hbm, ⟨41, _⟩ => ⟨S2x2048x1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run, with the result named.

  @main is five kernel launches among stretches of host layout operations. Every weakly fair execution ends with
  every unscoped buffer holding the fold of those eleven segments from the launch memory: a host stretch applies
  its operations; a launch leaves each of its arrays at what its grid points wrote back and every other buffer as
  it found it. So the result array ends at that fold read at the result's buffer, and the nine arguments end as
  launched.
-/
import proofs.«145692_j50697793962418_1_alg».proof.Proof.Gen.KernelIdeal.Frame

set_option maxRecDepth 16384

noncomputable section

namespace Cert.MHA.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the segments' fold
    read at its buffer, and every argument array ends as launched. -/
theorem run_result : θ_run defs (onTc (τ := τ) (main (F := F))) ⟨m, fun _ => 0, ρ⟩ (fun r => ∀ c : Dev nD,
      r.2.mem ((c.tc : Thread nD τ).loc main_v22) = W11 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v22 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.MHA.Kernel

end
-- ==== Proof.AttentionSpec.lean ====
/-
  Multi-head attention over the extended reals, entry by entry.

  For an input `x : [2, 2048, 1024]`, weight matrices `W : [1024, 1024]` and biases `[1024]`:
  a projection is `y(b, t, e) = ∑ₖ x(b, t, k) · W(e, k) + bias(e)`; feature `e = 64·h + d` is coordinate
  `d` of head `h`; the score of query position `t` against key position `j` in head `h` is
  `(∑_d q(b,t,64h+d) · k(b,j,64h+d)) · ⅛`; the weight is `exp(score) / ∑_{j'} exp(score')` (no maximum is
  subtracted); the context is `∑ⱼ weight(j) · v(b, j, 64h+d)`; the result is the projection of the context.

  Two facts about constants: the word `0x3E000000` denotes `⅛`, and dividing by `√64` (the word `0x42800000`
  denotes `64`, and `√64 = 8`) is multiplying by `⅛` — on every extended real, the infinities included.
-/
import Idealize.ShloMosaic.PureOps.Ideal
import Idealize.ShloMosaic.Lib.ValueIdx

noncomputable section

namespace Cert.MHA

open Idealize.ShloMosaic Idealize.ShloMosaic.ValueIdx

/-- The arrays: the input and the result, a weight matrix, a bias vector. -/
abbrev Act := (⟨3, ![2, 2048, 1024]⟩ : Shape).Idx → EReal
abbrev Mat := (⟨2, ![1024, 1024]⟩ : Shape).Idx → EReal
abbrev Bias := (⟨1, ![1024]⟩ : Shape).Idx → EReal

/-- The scale `1/√64 = ⅛`. -/
def scale : EReal := ((1 / 8 : ℝ) : EReal)

/-- Feature `64·h + d`: coordinate `d` of head `h`. -/
def feat (h : Fin 16) (d : Fin 64) : Fin 1024 := ⟨h.val * 64 + d.val, by omega⟩
/-- The head of a feature, and its coordinate inside the head. -/
def headOf (k : Fin 1024) : Fin 16 := ⟨k.val / 64, by omega⟩
def coordOf (k : Fin 1024) : Fin 64 := ⟨k.val % 64, by omega⟩

/-- One entry of a projection `x · Wᵀ + bias`. -/
def proj (x : Act) (W : Mat) (bias : Bias) (b : Fin 2) (t : Fin 2048) (e : Fin 1024) : EReal :=
  (∑ k : Fin 1024, x (ix3 b t k) * W (ix2 e k)) + bias (ix1 e)

/-- The scaled score of query position `t` against key position `j`, in head `h` of batch `b`. -/
def score (x : Act) (Wq : Mat) (bq : Bias) (Wk : Mat) (bk : Bias) (b : Fin 2) (h : Fin 16) (t j : Fin 2048) : EReal :=
  (∑ d : Fin 64, proj x Wq bq b t (feat h d) * proj x Wk bk b j (feat h d)) * scale

/-- The softmax weight: `exp(score) / ∑ exp(score)` over the key positions. -/
def weight (x : Act) (Wq : Mat) (bq : Bias) (Wk : Mat) (bk : Bias) (b : Fin 2) (h : Fin 16) (t j : Fin 2048) : EReal :=
  Ideal.div (Ideal.exp (score x Wq bq Wk bk b h t j)) (∑ j' : Fin 2048, Ideal.exp (score x Wq bq Wk bk b h t j'))

/-- The context: the weighted sum of the value rows. -/
def context (x : Act) (Wq : Mat) (bq : Bias) (Wk : Mat) (bk : Bias) (Wv : Mat) (bv : Bias)
    (b : Fin 2) (h : Fin 16) (t : Fin 2048) (d : Fin 64) : EReal :=
  ∑ j : Fin 2048, weight x Wq bq Wk bk b h t j * proj x Wv bv b j (feat h d)

/-- The whole layer: the output projection of the contexts, heads merged feature by feature. -/
def attention (x : Act) (Wq : Mat) (bq : Bias) (Wk : Mat) (bk : Bias) (Wv : Mat) (bv : Bias) (Wo : Mat) (bo : Bias) : Act :=
  fun i => (∑ k : Fin 1024, context x Wq bq Wk bk Wv bv (i 0) (headOf k) (i 1) (coordOf k) * Wo (ix2 (i 2) k)) + bo (ix1 (i 2))

/-- The word `0x3E000000` denotes `⅛`. -/
theorem ofBits_eighth : Ideal.ofBits .f32 0x3E000000#32 = scale := by
  unfold scale
  simp [Ideal.ofBits, Ideal.ieee, -EReal.coe_mul]; norm_num

/-- The word `0x42800000` denotes `64`. -/
theorem ofBits_64 : Ideal.ofBits .f32 0x42800000#32 = ((64 : ℝ) : EReal) := by
  simp [Ideal.ofBits, Ideal.ieee, -EReal.coe_mul]; norm_num

/-- The word `0x00000000` denotes `0`. -/
theorem ofBits_zero : Ideal.ofBits .f32 0x00000000#32 = 0 := by
  simp [Ideal.ofBits, Ideal.ieee]

/-- `√64 = 8` on the extended reals. -/
theorem sqrt_64 : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-- Dividing by `√64` is multiplying by `⅛`, for every extended real. -/
theorem div_sqrt_64 (s : EReal) : Ideal.div s (Ideal.sqrt (Ideal.ofBits .f32 0x42800000#32)) = s * scale := by
  rw [ofBits_64, sqrt_64, Ideal.div_coe (by norm_num : (8 : ℝ) ≠ 0)]
  rfl

end Cert.MHA

end
-- ==== Proof.KernelStages.lean ====
/-
  The two kinds of launch, each as ONE function of whole arrays.

  A linear launch over a `[4096, 1024]` activation, a `[1024, 1024]` matrix already transposed and a bias row
  `[1, 1024]` leaves, at `(p, q)`, `∑ₖ X(p, k) · Wt(k, q) + bias(0, q)`: a row of the result depends on the same row
  of the activation only, so the eight row blocks are restrictions of this one function.

  The attention launch over `[2, 16, 2048, 64]` queries, keys and values leaves, at `(b, h, t, d)`,
  `∑ⱼ (exp sⱼ / ∑_{j'} exp s_{j'}) · V(b, h, j, d)` with `sⱼ = (∑ₑ Q(b, h, t, e) · K(b, h, j, e)) · ⅛`: an entry depends on
  its own query row and on all keys and values of its batch and head, so the blocks of 512 query rows are
  restrictions of this one function.
-/
import proofs.«145692_j50697793962418_1_alg».proof.Proof.AttentionSpec

noncomputable section

namespace Cert.MHA

open Idealize.ShloMosaic Idealize.ShloMosaic.ValueIdx

abbrev Rows := (⟨2, ![4096, 1024]⟩ : Shape).Idx → EReal
abbrev BiasRow := (⟨2, ![1, 1024]⟩ : Shape).Idx → EReal
abbrev Heads := (⟨4, ![2, 16, 2048, 64]⟩ : Shape).Idx → EReal

/-- What a linear launch leaves: rows times the transposed matrix, plus the bias row. -/
def linear (X : Rows) (Wt : Mat) (b2 : BiasRow) : Rows :=
  fun i => (∑ k : Fin 1024, X (ix2 (i 0) k) * Wt (ix2 k (i 1))) + b2 (ix2 (0 : Fin 1) (i 1))

/-- The scaled score of a query row against key row `j`, inside one batch and head. -/
def rowScore (Q K : Heads) (b : Fin 2) (h : Fin 16) (t j : Fin 2048) : EReal :=
  (∑ e : Fin 64, Q (ix4 b h t e) * K (ix4 b h j e)) * scale

/-- What the attention launch leaves: the softmax-weighted sum of the value rows. -/
def heads (Q K V : Heads) : Heads :=
  fun i => ∑ j : Fin 2048,
    Ideal.div (Ideal.exp (rowScore Q K (i 0) (i 1) (i 2) j)) (∑ j' : Fin 2048, Ideal.exp (rowScore Q K (i 0) (i 1) (i 2) j'))
      * V (ix4 (i 0) (i 1) j (i 3))

end Cert.MHA

end
-- ==== Proof.KernelLayer.lean ====
/-
  The kernel's program as ONE function of its nine arguments.

  The host flattens `x` to `[4096, 1024]` rows, transposes each weight matrix and lays each bias out as a row; three
  linear launches give the projected rows; each is split into heads — `[4096, 1024] → [2, 2048, 16, 64]` row-major, then
  the two middle axes exchanged — ; the attention launch gives the contexts per head; the heads are merged back —
  the two middle axes exchanged, then `[2, 2048, 16, 64] → [4096, 1024]` row-major — ; a fourth linear launch projects
  them; the result is laid out as `[2, 2048, 1024]`.
-/
import proofs.«145692_j50697793962418_1_alg».proof.KernelIdeal
import proofs.«145692_j50697793962418_1_alg».proof.Proof.Gen.KernelIdeal
import proofs.«145692_j50697793962418_1_alg».proof.Proof.KernelStages

noncomputable section

namespace Cert.MHA

open Cert.KernelIdeal Cert.KernelIdeal.Facts₀ Idealize.ShloMosaic

/-- The rows of one projection: the flattened input against the transposed matrix, plus the bias row. -/
def projRows (x : S2x2048x1024.Idx → EReal) (W : S1024x1024.Idx → EReal) (b : S1024.Idx → EReal) : S4096x1024.Idx → EReal :=
  linear (shapeCast S4096x1024 x shapeCasts_S2x2048x1024_S4096x1024)
    (transpose S1024x1024 [1, 0] W transposes_S1024x1024_S1024x1024_1_0)
    (shapeCast S1x1024 b shapeCasts_S1024_S1x1024)

/-- Rows split into heads: `[4096, 1024] → [2, 2048, 16, 64] → [2, 16, 2048, 64]`. -/
def splitHeads (y : S4096x1024.Idx → EReal) : S2x16x2048x64.Idx → EReal :=
  transpose S2x16x2048x64 [0, 2, 1, 3] (shapeCast S2x2048x16x64 y shapeCasts_S4096x1024_S2x2048x16x64)
    transposes_S2x2048x16x64_S2x16x2048x64_0_2_1_3

/-- Heads merged back into rows: `[2, 16, 2048, 64] → [2, 2048, 16, 64] → [4096, 1024]`. -/
def mergeHeads (z : S2x16x2048x64.Idx → EReal) : S4096x1024.Idx → EReal :=
  shapeCast S4096x1024 (transpose S2x2048x16x64 [0, 2, 1, 3] z transposes_S2x16x2048x64_S2x2048x16x64_0_2_1_3)
    shapeCasts_S2x2048x16x64_S4096x1024

/-- The whole program. -/
def kernelLayer (x : S2x2048x1024.Idx → EReal) (Wq : S1024x1024.Idx → EReal) (bq : S1024.Idx → EReal)
    (Wk : S1024x1024.Idx → EReal) (bk : S1024.Idx → EReal) (Wv : S1024x1024.Idx → EReal) (bv : S1024.Idx → EReal)
    (Wo : S1024x1024.Idx → EReal) (bo : S1024.Idx → EReal) : S2x2048x1024.Idx → EReal :=
  shapeCast S2x2048x1024
    (linear (mergeHeads (heads (splitHeads (projRows x Wq bq)) (splitHeads (projRows x Wk bk)) (splitHeads (projRows x Wv bv))))
      (transpose S1024x1024 [1, 0] Wo transposes_S1024x1024_S1024x1024_1_0)
      (shapeCast S1x1024 bo shapeCasts_S1024_S1x1024))
    shapeCasts_S4096x1024_S2x2048x1024

end Cert.MHA

end
-- ==== Proof.Launch0.lean ====
/-
  Launch 0: a linear layer over eight blocks of 512 rows.

  Grid point `t` stages rows `512·t … 512·t + 511` of the activation, the whole transposed matrix and the whole
  bias row, and writes back the same rows of the result. Its payload at `(p, q)` is
  `∑ₖ x(p, k) · w(k, q) + bias(0, q)` of the staged blocks, and row `p` of the staged block is row `512·t + p` of the
  array: so what point `t` writes back is block `t` of the one whole-array function `linear`. The eight blocks tile
  the 4096 rows (row `r` lies in block `r / 512`), so the array ends at `linear` of the arrays the launch found.
-/
import proofs.«145692_j50697793962418_1_alg».proof.Proof.Gen.KernelIdeal.Frame
import proofs.«145692_j50697793962418_1_alg».proof.Proof.KernelStages
import Idealize.ShloMosaic.Lib.Pipeline.Value
import Idealize.ShloMosaic.Lib.ValueIdx

set_option maxRecDepth 16384

noncomputable section

namespace Cert.MHA.Launch0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's payload read at `(p, q)`: the row of the first block against the column of the second, plus the bias row. -/
def PayloadAt : Prop :=
  ∀ (x : Vec Ideal S512x1024 .f32) (w : Vec Ideal S1024x1024 .f32) (bias : Vec Ideal S1x1024 .f32) (p : Fin 512) (q : Fin 1024),
    k0_pay1 (F := Ideal) x w bias (ix2 p q) = (∑ k : Fin 1024, x (ix2 p k) * w (ix2 k q)) + bias (ix2 (0 : Fin 1) q)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the activation's block row is the result's, every other block index is zero. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every block row is some point's. -/
theorem block_onto : ∀ r : Fin 8, ∃ t : Fin cfg0.N, win0_3.index t = ![r.val, 0] :=
  (by decide +kernel : ∀ r : Fin 8, ∃ t : Fin grid0.N, win0_3.index t = ![r.val, 0])

/-- What point `t` writes back is block `t` of `linear` of the arrays the launch found. -/
theorem flushed_eq (hpay : PayloadAt) (c : Dev nD) (t : Fin cfg0.N) :
    (dat0 V c).flushed 3 t
      = ((cfg0.win 3).blk t).view.read (Elt Ideal) (linear (V c main_v0) (V c main_v1) (V c main_v2)) := by
  show (cfg0.win 3).cut (grid0.coords t) ((dat0 V c).after 3 t) = _
  rw [after0_3]
  unfold out0_3
  rw [View.canon_unit_zero offsets_zero]
  simp only [View.ld_unit_zero (S := S512x1024) offsets_zero, View.ld_unit_zero (S := S1024x1024) offsets_zero,
    View.ld_unit_zero (S := S1x1024) offsets_zero]
  obtain ⟨e0, e1, e2, e3, e4, e5, e6, e7⟩ := block_indices t
  funext j
  obtain ⟨p, q, rfl⟩ : ∃ (p : Fin 512) (q : Fin 1024), j = ix2 p q := ⟨j 0, j 1, eq_ix2 j⟩
  show k0_pay1 (iblk0 V c 0 t) (iblk0 V c 1 t) (iblk0 V c 2 t) (ix2 p q)
    = linear (V c main_v0) (V c main_v1) (V c main_v2) (((cfg0.win 3).blk t).view.emb (ix2 p q))
  refine (hpay (iblk0 V c 0 t) (iblk0 V c 1 t) (iblk0 V c 2 t) p q).trans ?_
  unfold linear
  refine congrArg₂ (· + ·) (Finset.sum_congr rfl fun k _ => congrArg₂ (· * ·) ?_ ?_) ?_
  · show V c main_v0 (((cfg0.win 0).blk t).view.emb (ix2 p k)) = V c main_v0 (ix2 ((((cfg0.win 3).blk t).view.emb (ix2 p q)) 0) k)
    refine congrArg (V c main_v0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  · show V c main_v1 (((cfg0.win 1).blk t).view.emb (ix2 k q)) = V c main_v1 (ix2 k ((((cfg0.win 3).blk t).view.emb (ix2 p q)) 1))
    refine congrArg (V c main_v1) (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  · show V c main_v2 (((cfg0.win 2).blk t).view.emb (ix2 (0 : Fin 1) q)) = V c main_v2 (ix2 (0 : Fin 1) ((((cfg0.win 3).blk t).view.emb (ix2 p q)) 1))
    refine congrArg (V c main_v2) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega

/-- An index of the result array lies in point `t`'s block iff each coordinate lies in the block's range. -/
theorem mem_block (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v3).slice (win0_3.rect t)).set ↔ _
  rw [View.set_slice_whole, Rect.mem_set_unit]
  exact Iff.rfl

/-- The blocks tile the array: row `r` lies in the block of point `r / 512`. -/
theorem covered (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := block_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The result array after the launch: `linear` of the arrays the launch found. -/
theorem array (hpay : PayloadAt) (c : Dev nD) :
    (dat0 V c).arrAt 3 cfg0.N = linear (V c main_v0) (V c main_v1) (V c main_v2) :=
  (dat0 V c).arrAt_eq_of_cover 3 _ (fun t _ => flushed_eq V hpay c t) covered

end Cert.MHA.Launch0

end
-- ==== Proof.Launch1.lean ====
/-
  Launch 1: a linear layer over eight blocks of 512 rows.

  Grid point `t` stages rows `512·t … 512·t + 511` of the activation, the whole transposed matrix and the whole
  bias row, and writes back the same rows of the result. Its payload at `(p, q)` is
  `∑ₖ x(p, k) · w(k, q) + bias(0, q)` of the staged blocks, and row `p` of the staged block is row `512·t + p` of the
  array: so what point `t` writes back is block `t` of the one whole-array function `linear`. The eight blocks tile
  the 4096 rows (row `r` lies in block `r / 512`), so the array ends at `linear` of the arrays the launch found.
-/
import proofs.«145692_j50697793962418_1_alg».proof.Proof.Gen.KernelIdeal.Frame
import proofs.«145692_j50697793962418_1_alg».proof.Proof.KernelStages
import Idealize.ShloMosaic.Lib.Pipeline.Value
import Idealize.ShloMosaic.Lib.ValueIdx

set_option maxRecDepth 16384

noncomputable section

namespace Cert.MHA.Launch1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's payload read at `(p, q)`: the row of the first block against the column of the second, plus the bias row. -/
def PayloadAt : Prop :=
  ∀ (x : Vec Ideal S512x1024 .f32) (w : Vec Ideal S1024x1024 .f32) (bias : Vec Ideal S1x1024 .f32) (p : Fin 512) (q : Fin 1024),
    k1_pay1 (F := Ideal) x w bias (ix2 p q) = (∑ k : Fin 1024, x (ix2 p k) * w (ix2 k q)) + bias (ix2 (0 : Fin 1) q)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the activation's block row is the result's, every other block index is zero. -/
theorem block_indices : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 7 ∧ win1_3.index t (1 : Fin 2) = 0 :=
  (by decide +kernel : ∀ t : Fin grid1.N, _)

/-- Every block row is some point's. -/
theorem block_onto : ∀ r : Fin 8, ∃ t : Fin cfg1.N, win1_3.index t = ![r.val, 0] :=
  (by decide +kernel : ∀ r : Fin 8, ∃ t : Fin grid1.N, win1_3.index t = ![r.val, 0])

/-- What point `t` writes back is block `t` of `linear` of the arrays the launch found. -/
theorem flushed_eq (hpay : PayloadAt) (c : Dev nD) (t : Fin cfg1.N) :
    (dat1 V c).flushed 3 t
      = ((cfg1.win 3).blk t).view.read (Elt Ideal) (linear (V c main_v0) (V c main_v4) (V c main_v5)) := by
  show (cfg1.win 3).cut (grid1.coords t) ((dat1 V c).after 3 t) = _
  rw [after1_3]
  unfold out1_3
  rw [View.canon_unit_zero offsets_zero]
  simp only [View.ld_unit_zero (S := S512x1024) offsets_zero, View.ld_unit_zero (S := S1024x1024) offsets_zero,
    View.ld_unit_zero (S := S1x1024) offsets_zero]
  obtain ⟨e0, e1, e2, e3, e4, e5, e6, e7⟩ := block_indices t
  funext j
  obtain ⟨p, q, rfl⟩ : ∃ (p : Fin 512) (q : Fin 1024), j = ix2 p q := ⟨j 0, j 1, eq_ix2 j⟩
  show k1_pay1 (iblk1 V c 0 t) (iblk1 V c 1 t) (iblk1 V c 2 t) (ix2 p q)
    = linear (V c main_v0) (V c main_v4) (V c main_v5) (((cfg1.win 3).blk t).view.emb (ix2 p q))
  refine (hpay (iblk1 V c 0 t) (iblk1 V c 1 t) (iblk1 V c 2 t) p q).trans ?_
  unfold linear
  refine congrArg₂ (· + ·) (Finset.sum_congr rfl fun k _ => congrArg₂ (· * ·) ?_ ?_) ?_
  · show V c main_v0 (((cfg1.win 0).blk t).view.emb (ix2 p k)) = V c main_v0 (ix2 ((((cfg1.win 3).blk t).view.emb (ix2 p q)) 0) k)
    refine congrArg (V c main_v0) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 1024 + 1 * k.val = k.val; omega
  · show V c main_v4 (((cfg1.win 1).blk t).view.emb (ix2 k q)) = V c main_v4 (ix2 k ((((cfg1.win 3).blk t).view.emb (ix2 p q)) 1))
    refine congrArg (V c main_v4) (funext fun a => Fin.ext ?_)
    match a with
    | ⟨0, _⟩ => show win1_1.index t (0 : Fin 2) * 1024 + 1 * k.val = k.val; omega
    | ⟨1, _⟩ => show win1_1.index t (1 : Fin 2) * 1024 + 1 * q.val = win1_3.index t (1 : Fin 2) * 1024 + 1 * q.val; omega
  · show V c main_v5 (((cfg1.win 2).blk t).view.emb (ix2 (0 : Fin 1) q)) = V c main_v5 (ix2 (0 : Fin 1) ((((cfg1.win 3).blk t).view.emb (ix2 p q)) 1))
    refine congrArg (V c main_v5) (funext fun a => Fin.ext ?_)
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega

/-- An index of the result array lies in point `t`'s block iff each coordinate lies in the block's range. -/
theorem mem_block (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v6).slice (win1_3.rect t)).set ↔ _
  rw [View.set_slice_whole, Rect.mem_set_unit]
  exact Iff.rfl

/-- The blocks tile the array: row `r` lies in the block of point `r / 512`. -/
theorem covered (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := block_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- The result array after the launch: `linear` of the arrays the launch found. -/
theorem array (hpay : PayloadAt) (c : Dev nD) :
    (dat1 V c).arrAt 3 cfg1.N = linear (V c main_v0) (V c main_v4) (V c main_v5) :=
  (dat1 V c).arrAt_eq_of_cover 3 _ (fun t _ => flushed_eq V hpay c t) covered

end Cert.MHA.Launch1

end
-- ==== Proof.Launch2.lean ====
/-
  Launch 2: a linear layer over eight blocks of 512 rows.

  Grid point `t` stages rows `512·t … 512·t + 511` of the activation, the whole transposed matrix and the whole
  bias row, and writes back the same rows of the result. Its payload at `(p, q)` is
  `∑ₖ x(p, k) · w(k, q) + bias(0, q)` of the staged blocks, and row `p` of the staged block is row `512·t + p` of the
  array: so what point `t` writes back is block `t` of the one whole-array function `linear`. The eight blocks tile
  the 4096 rows (row `r` lies in block `r / 512`), so the array ends at `linear` of the arrays the launch found.
-/
import proofs.«145692_j50697793962418_1_alg».proof.Proof.Gen.KernelIdeal.Frame
import proofs.«145692_j50697793962418_1_alg».proof.Proof.KernelStages
import Idealize.ShloMosaic.Lib.Pipeline.Value
import Idealize.ShloMosaic.Lib.ValueIdx

set_option maxRecDepth 16384

noncomputable section

namespace Cert.MHA.Launch2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's payload read at `(p, q)`: the row of the first block against the column of the second, plus the bias row. -/
def PayloadAt : Prop :=
  ∀ (x : Vec Ideal S512x1024 .f32) (w : Vec Ideal S1024x1024 .f32) (bias : Vec Ideal S1x1024 .f32) (p : Fin 512) (q : Fin 1024),
    k2_pay1 (F := Ideal) x w bias (ix2 p q) = (∑ k : Fin 1024, x (ix2 p k) * w (ix2 k q)) + bias (ix2 (0 : Fin 1) q)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the activation's block row is the result's, every other block index is zero. -/
theorem block_indices : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 7 ∧ win2_3.index t (1 : Fin 2) = 0 :=
  (by decide +kernel : ∀ t : Fin grid2.N, _)

/-- Every block row is some point's. -/
theorem block_onto : ∀ r : Fin 8, ∃ t : Fin cfg2.N, win2_3.index t = ![r.val, 0] :=
  (by decide +kernel : ∀ r : Fin 8, ∃ t : Fin grid2.N, win2_3.index t = ![r.val, 0])

/-- What point `t` writes back is block `t` of `linear` of the arrays the launch found. -/
theorem flushed_eq (hpay : PayloadAt) (c : Dev nD) (t : Fin cfg2.N) :
    (dat2 V c).flushed 3 t
      = ((cfg2.win 3).blk t).view.read (Elt Ideal) (linear (V c main_v0) (V c main_v7) (V c main_v8)) := by
  show (cfg2.win 3).cut (grid2.coords t) ((dat2 V c).after 3 t) = _
  rw [after2_3]
  unfold out2_3
  rw [View.canon_unit_zero offsets_zero]
  simp only [View.ld_unit_zero (S := S512x1024) offsets_zero, View.ld_unit_zero (S := S1024x1024) offsets_zero,
    View.ld_unit_zero (S := S1x1024) offsets_zero]
  obtain ⟨e0, e1, e2, e3, e4, e5, e6, e7⟩ := block_indices t
  funext j
  obtain ⟨p, q, rfl⟩ : ∃ (p : Fin 512) (q : Fin 1024), j = ix2 p q := ⟨j 0, j 1, eq_ix2 j⟩
  show k2_pay1 (iblk2 V c 0 t) (iblk2 V c 1 t) (iblk2 V c 2 t) (ix2 p q)
    = linear (V c main_v0) (V c main_v7) (V c main_v8) (((cfg2.win 3).blk t).view.emb (ix2 p q))
  refine (hpay (iblk2 V c 0 t) (iblk2 V c 1 t) (iblk2 V c 2 t) p q).trans ?_
  unfold linear
  refine congrArg₂ (· + ·) (Finset.sum_congr rfl fun k _ => congrArg₂ (· * ·) ?_ ?_) ?_
  · show V c main_v0 (((cfg2.win 0).blk t).view.emb (ix2 p k)) = V c main_v0 (ix2 ((((cfg2.win 3).blk t).view.emb (ix2 p q)) 0) k)
    refine congrArg (V c main_v0) (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  · show V c main_v7 (((cfg2.win 1).blk t).view.emb (ix2 k q)) = V c main_v7 (ix2 k ((((cfg2.win 3).blk t).view.emb (ix2 p q)) 1))
    refine congrArg (V c main_v7) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + 1 * q.val; omega
  · show V c main_v8 (((cfg2.win 2).blk t).view.emb (ix2 (0 : Fin 1) q)) = V c main_v8 (ix2 (0 : Fin 1) ((((cfg2.win 3).blk t).view.emb (ix2 p q)) 1))
    refine congrArg (V c main_v8) (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the result array lies in point `t`'s block iff each coordinate lies in the block's range. -/
theorem mem_block (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v9).slice (win2_3.rect t)).set ↔ _
  rw [View.set_slice_whole, Rect.mem_set_unit]
  exact Iff.rfl

/-- The blocks tile the array: row `r` lies in the block of point `r / 512`. -/
theorem covered (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := block_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The result array after the launch: `linear` of the arrays the launch found. -/
theorem array (hpay : PayloadAt) (c : Dev nD) :
    (dat2 V c).arrAt 3 cfg2.N = linear (V c main_v0) (V c main_v7) (V c main_v8) :=
  (dat2 V c).arrAt_eq_of_cover 3 _ (fun t _ => flushed_eq V hpay c t) covered

end Cert.MHA.Launch2

end
-- ==== Proof.Launch3.lean ====
/-
  Launch 3: per-head attention over a grid of 2 batches × 16 heads × 4 blocks of 512 query rows.

  Grid point `(b, h, i)` stages query rows `512·i … 512·i + 511` of batch `b`, head `h`, and ALL 2048 key rows and value
  rows of that batch and head, and writes back the same query rows of the result. Its payload at `(r, d)` is
  `∑ⱼ (exp sⱼ / ∑_{j'} exp s_{j'}) · v(j, d)` with `sⱼ = (∑ₑ q(r, e) · k(j, e)) · ⅛` of the staged blocks; row `r` of the staged
  query block is row `512·i + r` of the array, and the staged keys and values are the array's rows of `(b, h)`: so what a
  point writes back is its block of the one whole-array function `heads`. The 128 blocks tile the array.
-/
import proofs.«145692_j50697793962418_1_alg».proof.Proof.Gen.KernelIdeal.Frame
import proofs.«145692_j50697793962418_1_alg».proof.Proof.KernelStages
import Idealize.ShloMosaic.Lib.Pipeline.Value
import Idealize.ShloMosaic.Lib.ValueIdx

set_option maxRecDepth 16384

noncomputable section

namespace Cert.MHA.Launch3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's payload read at `(r, d)`: the softmax-weighted sum of the staged value rows. -/
def PayloadAt : Prop :=
  ∀ (q : Vec Ideal S1x1x512x64 .f32) (k v : Vec Ideal S1x1x2048x64 .f32) (r : Fin 512) (d : Fin 64),
    k3_pay1 (F := Ideal) q k v (ix4 (0 : Fin 1) (0 : Fin 1) r d)
      = ∑ j : Fin 2048,
          Ideal.div (Ideal.exp ((∑ e : Fin 64, q (ix4 (0 : Fin 1) (0 : Fin 1) r e) * k (ix4 (0 : Fin 1) (0 : Fin 1) j e)) * scale))
            (∑ j' : Fin 2048, Ideal.exp ((∑ e : Fin 64, q (ix4 (0 : Fin 1) (0 : Fin 1) r e) * k (ix4 (0 : Fin 1) (0 : Fin 1) j' e)) * scale))
          * v (ix4 (0 : Fin 1) (0 : Fin 1) j d)

variable (V : (c : Dev nD) → (b : Ref sig .tc) → Buf (Elt Ideal) ((c : Thread nD τ).loc b))

theorem offsets_zero : (![0, 0, 0, 0] : Fin 4 → Nat) = fun _ => 0 := funext fun a => by fin_cases a <;> rfl

/-- The index maps over the grid: the query block moves with the result's; keys and values follow its batch and head. -/
theorem block_indices : ∀ t : Fin cfg3.N,
    win3_0.index t (0 : Fin 4) = win3_3.index t (0 : Fin 4) ∧ win3_0.index t (1 : Fin 4) = win3_3.index t (1 : Fin 4)
    ∧ win3_0.index t (2 : Fin 4) = win3_3.index t (2 : Fin 4) ∧ win3_0.index t (3 : Fin 4) = 0
    ∧ win3_1.index t (0 : Fin 4) = win3_3.index t (0 : Fin 4) ∧ win3_1.index t (1 : Fin 4) = win3_3.index t (1 : Fin 4)
    ∧ win3_1.index t (2 : Fin 4) = 0 ∧ win3_1.index t (3 : Fin 4) = 0
    ∧ win3_2.index t (0 : Fin 4) = win3_3.index t (0 : Fin 4) ∧ win3_2.index t (1 : Fin 4) = win3_3.index t (1 : Fin 4)
    ∧ win3_2.index t (2 : Fin 4) = 0 ∧ win3_2.index t (3 : Fin 4) = 0
    ∧ win3_3.index t (0 : Fin 4) ≤ 1 ∧ win3_3.index t (1 : Fin 4) ≤ 15 ∧ win3_3.index t (2 : Fin 4) ≤ 3
    ∧ win3_3.index t (3 : Fin 4) = 0 :=
  (by decide +kernel : ∀ t : Fin grid3.N, _)

/-- Every block is some point's. -/
theorem block_onto : ∀ (b : Fin 2) (h : Fin 16) (i : Fin 4), ∃ t : Fin cfg3.N, win3_3.index t = ![b.val, h.val, i.val, 0] :=
  (by decide +kernel : ∀ (b : Fin 2) (h : Fin 16) (i : Fin 4), ∃ t : Fin grid3.N, win3_3.index t = ![b.val, h.val, i.val, 0])

/-- What point `t` writes back is block `t` of `heads` of the arrays the launch found. -/
theorem flushed_eq (hpay : PayloadAt) (c : Dev nD) (t : Fin cfg3.N) :
    (dat3 V c).flushed 3 t
      = ((cfg3.win 3).blk t).view.read (Elt Ideal) (heads (V c main_v11) (V c main_v13) (V c main_v15)) := by
  show (cfg3.win 3).cut (grid3.coords t) ((dat3 V c).after 3 t) = _
  rw [after3_3]
  unfold out3_3
  rw [View.canon_unit_zero offsets_zero]
  simp only [View.ld_unit_zero (S := S1x1x512x64) offsets_zero, View.ld_unit_zero (S := S1x1x2048x64) offsets_zero]
  obtain ⟨a0, a1, a2, a3, b0, b1, b2, b3, c0, c1, c2, c3, d0, d1, d2, d3⟩ := block_indices t
  funext j
  obtain ⟨u0, u1, r, d, rfl⟩ : ∃ (u0 u1 : Fin 1) (r : Fin 512) (d : Fin 64), j = ix4 u0 u1 r d := ⟨j 0, j 1, j 2, j 3, eq_ix4 j⟩
  obtain rfl : u0 = 0 := Subsingleton.elim _ _
  obtain rfl : u1 = 0 := Subsingleton.elim _ _
  show k3_pay1 (iblk3 V c 0 t) (iblk3 V c 1 t) (iblk3 V c 2 t) (ix4 (0 : Fin 1) (0 : Fin 1) r d)
    = heads (V c main_v11) (V c main_v13) (V c main_v15) (((cfg3.win 3).blk t).view.emb (ix4 (0 : Fin 1) (0 : Fin 1) r d))
  refine (hpay (iblk3 V c 0 t) (iblk3 V c 1 t) (iblk3 V c 2 t) r d).trans ?_
  have hQ : ∀ e : Fin 64, iblk3 V c 0 t (ix4 (0 : Fin 1) (0 : Fin 1) r e)
      = V c main_v11 (ix4 ((((cfg3.win 3).blk t).view.emb (ix4 (0 : Fin 1) (0 : Fin 1) r d)) 0)
          ((((cfg3.win 3).blk t).view.emb (ix4 (0 : Fin 1) (0 : Fin 1) r d)) 1)
          ((((cfg3.win 3).blk t).view.emb (ix4 (0 : Fin 1) (0 : Fin 1) r d)) 2) e) := fun e => by
    show V c main_v11 (((cfg3.win 0).blk t).view.emb (ix4 (0 : Fin 1) (0 : Fin 1) r e)) = _
    refine congrArg (V c main_v11) (funext fun a => Fin.ext ?_)
    match a with
    | ⟨0, _⟩ => show win3_0.index t (0 : Fin 4) * 1 + 1 * 0 = win3_3.index t (0 : Fin 4) * 1 + 1 * 0; omega
    | ⟨1, _⟩ => show win3_0.index t (1 : Fin 4) * 1 + 1 * 0 = win3_3.index t (1 : Fin 4) * 1 + 1 * 0; omega
    | ⟨2, _⟩ => show win3_0.index t (2 : Fin 4) * 512 + 1 * r.val = win3_3.index t (2 : Fin 4) * 512 + 1 * r.val; omega
    | ⟨3, _⟩ => show win3_0.index t (3 : Fin 4) * 64 + 1 * e.val = e.val; omega
  have hK : ∀ (j : Fin 2048) (e : Fin 64), iblk3 V c 1 t (ix4 (0 : Fin 1) (0 : Fin 1) j e)
      = V c main_v13 (ix4 ((((cfg3.win 3).blk t).view.emb (ix4 (0 : Fin 1) (0 : Fin 1) r d)) 0)
          ((((cfg3.win 3).blk t).view.emb (ix4 (0 : Fin 1) (0 : Fin 1) r d)) 1) j e) := fun j e => by
    show V c main_v13 (((cfg3.win 1).blk t).view.emb (ix4 (0 : Fin 1) (0 : Fin 1) j e)) = _
    refine congrArg (V c main_v13) (funext fun a => Fin.ext ?_)
    match a with
    | ⟨0, _⟩ => show win3_1.index t (0 : Fin 4) * 1 + 1 * 0 = win3_3.index t (0 : Fin 4) * 1 + 1 * 0; omega
    | ⟨1, _⟩ => show win3_1.index t (1 : Fin 4) * 1 + 1 * 0 = win3_3.index t (1 : Fin 4) * 1 + 1 * 0; omega
    | ⟨2, _⟩ => show win3_1.index t (2 : Fin 4) * 2048 + 1 * j.val = j.val; omega
    | ⟨3, _⟩ => show win3_1.index t (3 : Fin 4) * 64 + 1 * e.val = e.val; omega
  have hV : ∀ (j : Fin 2048), iblk3 V c 2 t (ix4 (0 : Fin 1) (0 : Fin 1) j d)
      = V c main_v15 (ix4 ((((cfg3.win 3).blk t).view.emb (ix4 (0 : Fin 1) (0 : Fin 1) r d)) 0)
          ((((cfg3.win 3).blk t).view.emb (ix4 (0 : Fin 1) (0 : Fin 1) r d)) 1) j
          ((((cfg3.win 3).blk t).view.emb (ix4 (0 : Fin 1) (0 : Fin 1) r d)) 3)) := fun j => by
    show V c main_v15 (((cfg3.win 2).blk t).view.emb (ix4 (0 : Fin 1) (0 : Fin 1) j d)) = _
    refine congrArg (V c main_v15) (funext fun a => Fin.ext ?_)
    match a with
    | ⟨0, _⟩ => show win3_2.index t (0 : Fin 4) * 1 + 1 * 0 = win3_3.index t (0 : Fin 4) * 1 + 1 * 0; omega
    | ⟨1, _⟩ => show win3_2.index t (1 : Fin 4) * 1 + 1 * 0 = win3_3.index t (1 : Fin 4) * 1 + 1 * 0; omega
    | ⟨2, _⟩ => show win3_2.index t (2 : Fin 4) * 2048 + 1 * j.val = j.val; omega
    | ⟨3, _⟩ => show win3_2.index t (3 : Fin 4) * 64 + 1 * d.val = win3_3.index t (3 : Fin 4) * 64 + 1 * d.val; omega
  simp only [hQ, hK, hV]
  rfl

/-- An index of the result array lies in point `t`'s block iff each coordinate lies in the block's range. -/
theorem mem_block (t : Fin cfg3.N) (i : S2x16x2048x64.Idx) :
    i ∈ ((cfg3.win 3).blk t).view.set ↔ ∀ a : Fin 4, win3_3.index t a * S1x1x512x64.size a ≤ (i a).val
      ∧ (i a).val < win3_3.index t a * S1x1x512x64.size a + S1x1x512x64.size a := by
  show i ∈ ((View.whole main_v16).slice (win3_3.rect t)).set ↔ _
  rw [View.set_slice_whole, Rect.mem_set_unit]
  exact Iff.rfl

/-- The blocks tile the array: `(b, h, row, d)` lies in the block of point `(b, h, row / 512)`. -/
theorem covered (i : S2x16x2048x64.Idx) :
    ∃ t : Fin cfg3.N, (cfg3.win 3).flush t = true ∧ i ∈ ((cfg3.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := block_onto ⟨(i 0).val, hi0⟩ ⟨(i 1).val, hi1⟩ ⟨(i 2).val / 512, by omega⟩
  have q0 : win3_3.index t (0 : Fin 4) = (i 0).val := congrFun ht 0
  have q1 : win3_3.index t (1 : Fin 4) = (i 1).val := congrFun ht 1
  have q2 : win3_3.index t (2 : Fin 4) = (i 2).val / 512 := congrFun ht 2
  have q3 : win3_3.index t (3 : Fin 4) = 0 := congrFun ht 3
  refine ⟨t, flush3_3 t, ?_⟩
  rw [mem_block]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 1 ≤ (i 1).val ∧ (i 1).val < win3_3.index t (1 : Fin 4) * 1 + 1; omega
  | ⟨2, _⟩ => show win3_3.index t (2 : Fin 4) * 512 ≤ (i 2).val ∧ (i 2).val < win3_3.index t (2 : Fin 4) * 512 + 512; omega
  | ⟨3, _⟩ => show win3_3.index t (3 : Fin 4) * 64 ≤ (i 3).val ∧ (i 3).val < win3_3.index t (3 : Fin 4) * 64 + 64; omega

/-- The result array after the launch: `heads` of the arrays the launch found. -/
theorem array (hpay : PayloadAt) (c : Dev nD) :
    (dat3 V c).arrAt 3 cfg3.N = heads (V c main_v11) (V c main_v13) (V c main_v15) :=
  (dat3 V c).arrAt_eq_of_cover 3 _ (fun t _ => flushed_eq V hpay c t) covered

end Cert.MHA.Launch3

end
-- ==== Proof.Launch4.lean ====
/-
  Launch 4: a linear layer over eight blocks of 512 rows.

  Grid point `t` stages rows `512·t … 512·t + 511` of the activation, the whole transposed matrix and the whole
  bias row, and writes back the same rows of the result. Its payload at `(p, q)` is
  `∑ₖ x(p, k) · w(k, q) + bias(0, q)` of the staged blocks, and row `p` of the staged block is row `512·t + p` of the
  array: so what point `t` writes back is block `t` of the one whole-array function `linear`. The eight blocks tile
  the 4096 rows (row `r` lies in block `r / 512`), so the array ends at `linear` of the arrays the launch found.
-/
import proofs.«145692_j50697793962418_1_alg».proof.Proof.Gen.KernelIdeal.Frame
import proofs.«145692_j50697793962418_1_alg».proof.Proof.KernelStages
import Idealize.ShloMosaic.Lib.Pipeline.Value
import Idealize.ShloMosaic.Lib.ValueIdx

set_option maxRecDepth 16384

noncomputable section

namespace Cert.MHA.Launch4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's payload read at `(p, q)`: the row of the first block against the column of the second, plus the bias row. -/
def PayloadAt : Prop :=
  ∀ (x : Vec Ideal S512x1024 .f32) (w : Vec Ideal S1024x1024 .f32) (bias : Vec Ideal S1x1024 .f32) (p : Fin 512) (q : Fin 1024),
    k4_pay1 (F := Ideal) x w bias (ix2 p q) = (∑ k : Fin 1024, x (ix2 p k) * w (ix2 k q)) + bias (ix2 (0 : Fin 1) q)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the activation's block row is the result's, every other block index is zero. -/
theorem block_indices : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 7 ∧ win4_3.index t (1 : Fin 2) = 0 :=
  (by decide +kernel : ∀ t : Fin grid4.N, _)

/-- Every block row is some point's. -/
theorem block_onto : ∀ r : Fin 8, ∃ t : Fin cfg4.N, win4_3.index t = ![r.val, 0] :=
  (by decide +kernel : ∀ r : Fin 8, ∃ t : Fin grid4.N, win4_3.index t = ![r.val, 0])

/-- What point `t` writes back is block `t` of `linear` of the arrays the launch found. -/
theorem flushed_eq (hpay : PayloadAt) (c : Dev nD) (t : Fin cfg4.N) :
    (dat4 V c).flushed 3 t
      = ((cfg4.win 3).blk t).view.read (Elt Ideal) (linear (V c main_v18) (V c main_v19) (V c main_v20)) := by
  show (cfg4.win 3).cut (grid4.coords t) ((dat4 V c).after 3 t) = _
  rw [after4_3]
  unfold out4_3
  rw [View.canon_unit_zero offsets_zero]
  simp only [View.ld_unit_zero (S := S512x1024) offsets_zero, View.ld_unit_zero (S := S1024x1024) offsets_zero,
    View.ld_unit_zero (S := S1x1024) offsets_zero]
  obtain ⟨e0, e1, e2, e3, e4, e5, e6, e7⟩ := block_indices t
  funext j
  obtain ⟨p, q, rfl⟩ : ∃ (p : Fin 512) (q : Fin 1024), j = ix2 p q := ⟨j 0, j 1, eq_ix2 j⟩
  show k4_pay1 (iblk4 V c 0 t) (iblk4 V c 1 t) (iblk4 V c 2 t) (ix2 p q)
    = linear (V c main_v18) (V c main_v19) (V c main_v20) (((cfg4.win 3).blk t).view.emb (ix2 p q))
  refine (hpay (iblk4 V c 0 t) (iblk4 V c 1 t) (iblk4 V c 2 t) p q).trans ?_
  unfold linear
  refine congrArg₂ (· + ·) (Finset.sum_congr rfl fun k _ => congrArg₂ (· * ·) ?_ ?_) ?_
  · show V c main_v18 (((cfg4.win 0).blk t).view.emb (ix2 p k)) = V c main_v18 (ix2 ((((cfg4.win 3).blk t).view.emb (ix2 p q)) 0) k)
    refine congrArg (V c main_v18) (funext fun a => Fin.ext ?_)
    match a with
    | ⟨0, _⟩ => show win4_0.index t (0 : Fin 2) * 512 + 1 * p.val = win4_3.index t (0 : Fin 2) * 512 + 1 * p.val; omega
    | ⟨1, _⟩ => show win4_0.index t (1 : Fin 2) * 1024 + 1 * k.val = k.val; omega
  · show V c main_v19 (((cfg4.win 1).blk t).view.emb (ix2 k q)) = V c main_v19 (ix2 k ((((cfg4.win 3).blk t).view.emb (ix2 p q)) 1))
    refine congrArg (V c main_v19) (funext fun a => Fin.ext ?_)
    match a with
    | ⟨0, _⟩ => show win4_1.index t (0 : Fin 2) * 1024 + 1 * k.val = k.val; omega
    | ⟨1, _⟩ => show win4_1.index t (1 : Fin 2) * 1024 + 1 * q.val = win4_3.index t (1 : Fin 2) * 1024 + 1 * q.val; omega
  · show V c main_v20 (((cfg4.win 2).blk t).view.emb (ix2 (0 : Fin 1) q)) = V c main_v20 (ix2 (0 : Fin 1) ((((cfg4.win 3).blk t).view.emb (ix2 p q)) 1))
    refine congrArg (V c main_v20) (funext fun a => Fin.ext ?_)
    match a with
    | ⟨0, _⟩ => show win4_2.index t (0 : Fin 2) * 1 + 1 * 0 = 0; omega
    | ⟨1, _⟩ => show win4_2.index t (1 : Fin 2) * 1024 + 1 * q.val = win4_3.index t (1 : Fin 2) * 1024 + 1 * q.val; omega

/-- An index of the result array lies in point `t`'s block iff each coordinate lies in the block's range. -/
theorem mem_block (t : Fin cfg4.N) (i : S4096x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v21).slice (win4_3.rect t)).set ↔ _
  rw [View.set_slice_whole, Rect.mem_set_unit]
  exact Iff.rfl

/-- The blocks tile the array: row `r` lies in the block of point `r / 512`. -/
theorem covered (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := block_onto ⟨(i 0).val / 512, by omega⟩
  have q0 : win4_3.index t (0 : Fin 2) = (i 0).val / 512 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- The result array after the launch: `linear` of the arrays the launch found. -/
theorem array (hpay : PayloadAt) (c : Dev nD) :
    (dat4 V c).arrAt 3 cfg4.N = linear (V c main_v18) (V c main_v19) (V c main_v20) :=
  (dat4 V c).arrAt_eq_of_cover 3 _ (fun t _ => flushed_eq V hpay c t) covered

end Cert.MHA.Launch4

end
-- ==== Proof.KernelValue.lean ====
/-
  The segments' fold, read buffer by buffer back to the launch memory.

  A host stretch writes only its own results, and a launch writes only its output array; so a buffer read by a later
  segment holds what the segment that produced it left, and an argument holds its launch contents throughout. Reading
  each launch's three operands this way, the fold at the result's buffer is the program's one function of the nine
  arguments (`kernelLayer`).
-/
import proofs.«145692_j50697793962418_1_alg».proof.Proof.Gen.KernelIdeal.Frame
import proofs.«145692_j50697793962418_1_alg».proof.Proof.KernelLayer
import proofs.«145692_j50697793962418_1_alg».proof.Proof.Launch0
import proofs.«145692_j50697793962418_1_alg».proof.Proof.Launch1
import proofs.«145692_j50697793962418_1_alg».proof.Proof.Launch2
import proofs.«145692_j50697793962418_1_alg».proof.Proof.Launch3
import proofs.«145692_j50697793962418_1_alg».proof.Proof.Launch4
import Idealize.ShloMosaic.Lib.StableHlo.Run

set_option maxRecDepth 16384

noncomputable section

namespace Cert.MHA.Kernel

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg)

/-- A host stretch leaves a buffer it does not write as it found it. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments, at each boundary where a later segment reads one -/
theorem W1_arg3 (c : Dev nD) : W1 m ρ c (Proc.devRef .tc main_arg3) = m ((c : Thread nD τ).loc main_arg3) :=
  (by host_keeps hostOps0 : W1 m ρ c (Proc.devRef .tc main_arg3) = W0 m ρ c (Proc.devRef .tc main_arg3)).trans rfl
theorem W1_arg4 (c : Dev nD) : W1 m ρ c (Proc.devRef .tc main_arg4) = m ((c : Thread nD τ).loc main_arg4) :=
  (by host_keeps hostOps0 : W1 m ρ c (Proc.devRef .tc main_arg4) = W0 m ρ c (Proc.devRef .tc main_arg4)).trans rfl
theorem W1_arg5 (c : Dev nD) : W1 m ρ c (Proc.devRef .tc main_arg5) = m ((c : Thread nD τ).loc main_arg5) :=
  (by host_keeps hostOps0 : W1 m ρ c (Proc.devRef .tc main_arg5) = W0 m ρ c (Proc.devRef .tc main_arg5)).trans rfl
theorem W1_arg6 (c : Dev nD) : W1 m ρ c (Proc.devRef .tc main_arg6) = m ((c : Thread nD τ).loc main_arg6) :=
  (by host_keeps hostOps0 : W1 m ρ c (Proc.devRef .tc main_arg6) = W0 m ρ c (Proc.devRef .tc main_arg6)).trans rfl
theorem W1_arg7 (c : Dev nD) : W1 m ρ c (Proc.devRef .tc main_arg7) = m ((c : Thread nD τ).loc main_arg7) :=
  (by host_keeps hostOps0 : W1 m ρ c (Proc.devRef .tc main_arg7) = W0 m ρ c (Proc.devRef .tc main_arg7)).trans rfl
theorem W1_arg8 (c : Dev nD) : W1 m ρ c (Proc.devRef .tc main_arg8) = m ((c : Thread nD τ).loc main_arg8) :=
  (by host_keeps hostOps0 : W1 m ρ c (Proc.devRef .tc main_arg8) = W0 m ρ c (Proc.devRef .tc main_arg8)).trans rfl
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W3_arg5 (c : Dev nD) : W3 m ρ c (Proc.devRef .tc main_arg5) = m ((c : Thread nD τ).loc main_arg5) :=
  (by host_keeps hostOps1 : W3 m ρ c (Proc.devRef .tc main_arg5) = W2 m ρ c (Proc.devRef .tc main_arg5)).trans (W2_arg5 m ρ c)
theorem W3_arg6 (c : Dev nD) : W3 m ρ c (Proc.devRef .tc main_arg6) = m ((c : Thread nD τ).loc main_arg6) :=
  (by host_keeps hostOps1 : W3 m ρ c (Proc.devRef .tc main_arg6) = W2 m ρ c (Proc.devRef .tc main_arg6)).trans (W2_arg6 m ρ c)
theorem W3_arg7 (c : Dev nD) : W3 m ρ c (Proc.devRef .tc main_arg7) = m ((c : Thread nD τ).loc main_arg7) :=
  (by host_keeps hostOps1 : W3 m ρ c (Proc.devRef .tc main_arg7) = W2 m ρ c (Proc.devRef .tc main_arg7)).trans (W2_arg7 m ρ c)
theorem W3_arg8 (c : Dev nD) : W3 m ρ c (Proc.devRef .tc main_arg8) = m ((c : Thread nD τ).loc main_arg8) :=
  (by host_keeps hostOps1 : W3 m ρ c (Proc.devRef .tc main_arg8) = W2 m ρ c (Proc.devRef .tc main_arg8)).trans (W2_arg8 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg7 (c : Dev nD) : W5 m ρ c (Proc.devRef .tc main_arg7) = m ((c : Thread nD τ).loc main_arg7) :=
  (by host_keeps hostOps2 : W5 m ρ c (Proc.devRef .tc main_arg7) = W4 m ρ c (Proc.devRef .tc main_arg7)).trans (W4_arg7 m ρ c)
theorem W5_arg8 (c : Dev nD) : W5 m ρ c (Proc.devRef .tc main_arg8) = m ((c : Thread nD τ).loc main_arg8) :=
  (by host_keeps hostOps2 : W5 m ρ c (Proc.devRef .tc main_arg8) = W4 m ρ c (Proc.devRef .tc main_arg8)).trans (W4_arg8 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg7 (c : Dev nD) : W7 m ρ c (Proc.devRef .tc main_arg7) = m ((c : Thread nD τ).loc main_arg7) :=
  (by host_keeps hostOps3 : W7 m ρ c (Proc.devRef .tc main_arg7) = W6 m ρ c (Proc.devRef .tc main_arg7)).trans (W6_arg7 m ρ c)
theorem W7_arg8 (c : Dev nD) : W7 m ρ c (Proc.devRef .tc main_arg8) = m ((c : Thread nD τ).loc main_arg8) :=
  (by host_keeps hostOps3 : W7 m ρ c (Proc.devRef .tc main_arg8) = W6 m ρ c (Proc.devRef .tc main_arg8)).trans (W6_arg8 m ρ c)
theorem W8_arg7 (c : Dev nD) : W8 m ρ c (Proc.devRef .tc main_arg7) = m ((c : Thread nD τ).loc main_arg7) :=
  (W8_of_ne m ρ c main_arg7 (by decide)).trans (W7_arg7 m ρ c)
theorem W8_arg8 (c : Dev nD) : W8 m ρ c (Proc.devRef .tc main_arg8) = m ((c : Thread nD τ).loc main_arg8) :=
  (W8_of_ne m ρ c main_arg8 (by decide)).trans (W7_arg8 m ρ c)

/-! ## The flattened input, read by the first three launches and written by none -/

theorem W1_v0 (c : Dev nD) : W1 m ρ c (Proc.devRef .tc main_v0) = shapeCast S4096x1024 (m ((c : Thread nD τ).loc main_arg0)) Facts₀.shapeCasts_S2x2048x1024_S4096x1024 := by
  dsimp only [W1, hostOps0]; after_results <;> rfl
theorem W2_v0 (c : Dev nD) : W2 m ρ c (Proc.devRef .tc main_v0) = W1 m ρ c (Proc.devRef .tc main_v0) :=
  (W2_arr m ρ c 0).trans (((dat0 (V1 m ρ) c).arrAt_in 0 rfl cfg0.N).trans (A_eq0 (V1 m ρ) c 0))
theorem W3_v0 (c : Dev nD) : W3 m ρ c (Proc.devRef .tc main_v0) = W2 m ρ c (Proc.devRef .tc main_v0) := by host_keeps hostOps1
theorem W4_v0 (c : Dev nD) : W4 m ρ c (Proc.devRef .tc main_v0) = W3 m ρ c (Proc.devRef .tc main_v0) :=
  (W4_arr m ρ c 0).trans (((dat1 (V3 m ρ) c).arrAt_in 0 rfl cfg1.N).trans (A_eq1 (V3 m ρ) c 0))
theorem W5_v0 (c : Dev nD) : W5 m ρ c (Proc.devRef .tc main_v0) = W4 m ρ c (Proc.devRef .tc main_v0) := by host_keeps hostOps2

/-- The flattened input as each of the first three launches finds it. -/
theorem rows_at_1 (c : Dev nD) : V1 m ρ c main_v0 = shapeCast S4096x1024 (m ((c : Thread nD τ).loc main_arg0)) Facts₀.shapeCasts_S2x2048x1024_S4096x1024 := W1_v0 m ρ c
theorem rows_at_3 (c : Dev nD) : V3 m ρ c main_v0 = shapeCast S4096x1024 (m ((c : Thread nD τ).loc main_arg0)) Facts₀.shapeCasts_S2x2048x1024_S4096x1024 :=
  (W3_v0 m ρ c).trans ((W2_v0 m ρ c).trans (W1_v0 m ρ c))
theorem rows_at_5 (c : Dev nD) : V5 m ρ c main_v0 = shapeCast S4096x1024 (m ((c : Thread nD τ).loc main_arg0)) Facts₀.shapeCasts_S2x2048x1024_S4096x1024 :=
  (W5_v0 m ρ c).trans ((W4_v0 m ρ c).trans (rows_at_3 m ρ c))

/-! ## The transposed matrices and the bias rows -/

theorem W1_v1 (c : Dev nD) : V1 m ρ c main_v1 = transpose S1024x1024 [1, 0] (m ((c : Thread nD τ).loc main_arg1)) Facts₀.transposes_S1024x1024_S1024x1024_1_0 := by
  show W1 m ρ c (Proc.devRef .tc main_v1) = _
  dsimp only [W1, hostOps0]; after_results <;> rfl
theorem W1_v2 (c : Dev nD) : V1 m ρ c main_v2 = shapeCast S1x1024 (m ((c : Thread nD τ).loc main_arg2)) Facts₀.shapeCasts_S1024_S1x1024 := by
  show W1 m ρ c (Proc.devRef .tc main_v2) = _
  dsimp only [W1, hostOps0]; after_results <;> rfl
theorem W3_v4 (c : Dev nD) : V3 m ρ c main_v4 = transpose S1024x1024 [1, 0] (m ((c : Thread nD τ).loc main_arg3)) Facts₀.transposes_S1024x1024_S1024x1024_1_0 := by
  show W3 m ρ c (Proc.devRef .tc main_v4) = _
  rw [← W2_arg3 m ρ c]
  dsimp only [W3, hostOps1]; after_results <;> rfl
theorem W3_v5 (c : Dev nD) : V3 m ρ c main_v5 = shapeCast S1x1024 (m ((c : Thread nD τ).loc main_arg4)) Facts₀.shapeCasts_S1024_S1x1024 := by
  show W3 m ρ c (Proc.devRef .tc main_v5) = _
  rw [← W2_arg4 m ρ c]
  dsimp only [W3, hostOps1]; after_results <;> rfl
theorem W5_v7 (c : Dev nD) : V5 m ρ c main_v7 = transpose S1024x1024 [1, 0] (m ((c : Thread nD τ).loc main_arg5)) Facts₀.transposes_S1024x1024_S1024x1024_1_0 := by
  show W5 m ρ c (Proc.devRef .tc main_v7) = _
  rw [← W4_arg5 m ρ c]
  dsimp only [W5, hostOps2]; after_results <;> rfl
theorem W5_v8 (c : Dev nD) : V5 m ρ c main_v8 = shapeCast S1x1024 (m ((c : Thread nD τ).loc main_arg6)) Facts₀.shapeCasts_S1024_S1x1024 := by
  show W5 m ρ c (Proc.devRef .tc main_v8) = _
  rw [← W4_arg6 m ρ c]
  dsimp only [W5, hostOps2]; after_results <;> rfl
theorem W9_v19 (c : Dev nD) : V9 m ρ c main_v19 = transpose S1024x1024 [1, 0] (m ((c : Thread nD τ).loc main_arg7)) Facts₀.transposes_S1024x1024_S1024x1024_1_0 := by
  show W9 m ρ c (Proc.devRef .tc main_v19) = _
  rw [← W8_arg7 m ρ c]
  dsimp only [W9, hostOps4]; after_results <;> rfl
theorem W9_v20 (c : Dev nD) : V9 m ρ c main_v20 = shapeCast S1x1024 (m ((c : Thread nD τ).loc main_arg8)) Facts₀.shapeCasts_S1024_S1x1024 := by
  show W9 m ρ c (Proc.devRef .tc main_v20) = _
  rw [← W8_arg8 m ρ c]
  dsimp only [W9, hostOps4]; after_results <;> rfl

/-! ## The three projections -/

theorem queries (h0 : Launch0.PayloadAt) (c : Dev nD) : W2 m ρ c (Proc.devRef .tc main_v3) = projRows (m ((c : Thread nD τ).loc main_arg0)) (m ((c : Thread nD τ).loc main_arg1)) (m ((c : Thread nD τ).loc main_arg2)) := by
  refine (W2_arr m ρ c 3).trans ((Launch0.array (V1 m ρ) h0 c).trans ?_)
  rw [rows_at_1, W1_v1, W1_v2]; rfl
theorem keys (h1 : Launch1.PayloadAt) (c : Dev nD) : W4 m ρ c (Proc.devRef .tc main_v6) = projRows (m ((c : Thread nD τ).loc main_arg0)) (m ((c : Thread nD τ).loc main_arg3)) (m ((c : Thread nD τ).loc main_arg4)) := by
  refine (W4_arr m ρ c 3).trans ((Launch1.array (V3 m ρ) h1 c).trans ?_)
  rw [rows_at_3, W3_v4, W3_v5]; rfl
theorem values (h2 : Launch2.PayloadAt) (c : Dev nD) : W6 m ρ c (Proc.devRef .tc main_v9) = projRows (m ((c : Thread nD τ).loc main_arg0)) (m ((c : Thread nD τ).loc main_arg5)) (m ((c : Thread nD τ).loc main_arg6)) := by
  refine (W6_arr m ρ c 3).trans ((Launch2.array (V5 m ρ) h2 c).trans ?_)
  rw [rows_at_5, W5_v7, W5_v8]; rfl

/-- The queries and the keys are still there when the heads are split. -/
theorem queries_at_6 (c : Dev nD) : W6 m ρ c (Proc.devRef .tc main_v3) = W2 m ρ c (Proc.devRef .tc main_v3) :=
  (W6_of_ne m ρ c main_v3 (by decide)).trans ((by host_keeps hostOps2 : W5 m ρ c (Proc.devRef .tc main_v3) = W4 m ρ c (Proc.devRef .tc main_v3)).trans
    ((W4_of_ne m ρ c main_v3 (by decide)).trans (by host_keeps hostOps1)))
theorem keys_at_6 (c : Dev nD) : W6 m ρ c (Proc.devRef .tc main_v6) = W4 m ρ c (Proc.devRef .tc main_v6) :=
  (W6_of_ne m ρ c main_v6 (by decide)).trans (by host_keeps hostOps2)

/-! ## The heads, the contexts, the output projection -/

theorem split_at_7 (c : Dev nD) :
    V7 m ρ c main_v11 = splitHeads (W6 m ρ c (Proc.devRef .tc main_v3))
    ∧ V7 m ρ c main_v13 = splitHeads (W6 m ρ c (Proc.devRef .tc main_v6))
    ∧ V7 m ρ c main_v15 = splitHeads (W6 m ρ c (Proc.devRef .tc main_v9)) := by
  refine ⟨?_, ?_, ?_⟩
  · show W7 m ρ c (Proc.devRef .tc main_v11) = _
    dsimp only [W7, hostOps3]; after_results <;> rfl
  · show W7 m ρ c (Proc.devRef .tc main_v13) = _
    dsimp only [W7, hostOps3]; after_results <;> rfl
  · show W7 m ρ c (Proc.devRef .tc main_v15) = _
    dsimp only [W7, hostOps3]; after_results <;> rfl

theorem contexts (h0 : Launch0.PayloadAt) (h1 : Launch1.PayloadAt) (h2 : Launch2.PayloadAt) (h3 : Launch3.PayloadAt) (c : Dev nD) : W8 m ρ c (Proc.devRef .tc main_v16)
    = heads (splitHeads (projRows (m ((c : Thread nD τ).loc main_arg0)) (m ((c : Thread nD τ).loc main_arg1)) (m ((c : Thread nD τ).loc main_arg2))))
        (splitHeads (projRows (m ((c : Thread nD τ).loc main_arg0)) (m ((c : Thread nD τ).loc main_arg3)) (m ((c : Thread nD τ).loc main_arg4))))
        (splitHeads (projRows (m ((c : Thread nD τ).loc main_arg0)) (m ((c : Thread nD τ).loc main_arg5)) (m ((c : Thread nD τ).loc main_arg6)))) := by
  refine (W8_arr m ρ c 3).trans ((Launch3.array (V7 m ρ) h3 c).trans ?_)
  obtain ⟨e1, e2, e3⟩ := split_at_7 m ρ c
  rw [e1, e2, e3, queries_at_6, keys_at_6, queries m ρ h0, keys m ρ h1, values m ρ h2]

theorem merged_at_9 (c : Dev nD) : V9 m ρ c main_v18 = mergeHeads (W8 m ρ c (Proc.devRef .tc main_v16)) := by
  show W9 m ρ c (Proc.devRef .tc main_v18) = _
  dsimp only [W9, hostOps4]; after_results <;> rfl

theorem projected (h4 : Launch4.PayloadAt) (c : Dev nD) : W10 m ρ c (Proc.devRef .tc main_v21)
    = linear (mergeHeads (W8 m ρ c (Proc.devRef .tc main_v16)))
        (transpose S1024x1024 [1, 0] (m ((c : Thread nD τ).loc main_arg7)) Facts₀.transposes_S1024x1024_S1024x1024_1_0)
        (shapeCast S1x1024 (m ((c : Thread nD τ).loc main_arg8)) Facts₀.shapeCasts_S1024_S1x1024) := by
  refine (W10_arr m ρ c 3).trans ((Launch4.array (V9 m ρ) h4 c).trans ?_)
  rw [merged_at_9, W9_v19, W9_v20]

/-- The fold at the result's buffer is the program's function of the nine arguments. -/
theorem result_value (h0 : Launch0.PayloadAt) (h1 : Launch1.PayloadAt) (h2 : Launch2.PayloadAt) (h3 : Launch3.PayloadAt)
    (h4 : Launch4.PayloadAt) (c : Dev nD) : W11 m ρ c (Proc.devRef .tc main_v22)
    = kernelLayer (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  have e : W11 m ρ c (Proc.devRef .tc main_v22) = shapeCast S2x2048x1024 (W10 m ρ c (Proc.devRef .tc main_v21)) Facts₀.shapeCasts_S4096x1024_S2x2048x1024 := by
    dsimp only [W11, hostOps5]; after_results <;> rfl
  rw [e, projected m ρ h4, contexts m ρ h0 h1 h2 h3]
  rfl

end Cert.MHA.Kernel

end
-- ==== Proof.KernelIsAttention.lean ====
/-
  The kernel's program is the attention layer, entry by entry.

  Row `2048·b + t` of a flattened array is position `(b, t)`; a transposed matrix at `(k, e)` is the matrix at `(e, k)`; a
  bias row at `(0, e)` is the bias at `e`. Splitting rows into heads reads, at `(b, h, t, d)`, row `2048·b + t` at feature
  `64·h + d`; merging reads, at row `2048·b + t` and feature `k`, head `k / 64` at coordinate `k % 64`. With these the
  program's composed function unfolds, at `(b, t, e)`, to the layer's definition: the same sums in the same order.
-/
import proofs.«145692_j50697793962418_1_alg».proof.Proof.KernelLayer
import Idealize.ShloMosaic.Lib.Pipeline.Value
import Idealize.ShloMosaic.Lib.ValueIdx

noncomputable section

namespace Cert.MHA

open Cert.KernelIdeal Cert.KernelIdeal.Facts₀ Idealize.ShloMosaic Idealize.ShloMosaic.ValueIdx

/-- Row `2048·b + t` of the flattened arrays. -/
def rowOf (b : Fin 2) (t : Fin 2048) : Fin 4096 := ⟨b.val * 2048 + t.val, by omega⟩

/-- The flattened input at row `(b, t)`. -/
theorem flatten_at (x : S2x2048x1024.Idx → EReal) (b : Fin 2) (t : Fin 2048) (k : Fin 1024) :
    shapeCast S4096x1024 x shapeCasts_S2x2048x1024_S4096x1024 (ix2 (rowOf b t) k) = x (ix3 b t k) :=
  shapeCast_apply x _ _ _ (by
    rw [Shape.rowMajor_val_three, Shape.rowMajor_val_two]
    show (b.val * 2048 + t.val) * 1024 + k.val = (b.val * 2048 + t.val) * 1024 + k.val
    rfl)

/-- The result laid out as `[2, 2048, 1024]`, at `(b, t, e)`. -/
theorem unflatten_at (y : S4096x1024.Idx → EReal) (b : Fin 2) (t : Fin 2048) (e : Fin 1024) :
    shapeCast S2x2048x1024 y shapeCasts_S4096x1024_S2x2048x1024 (ix3 b t e) = y (ix2 (rowOf b t) e) :=
  shapeCast_apply y _ _ _ (by
    rw [Shape.rowMajor_val_three, Shape.rowMajor_val_two]
    show (b.val * 2048 + t.val) * 1024 + e.val = (b.val * 2048 + t.val) * 1024 + e.val
    rfl)

/-- A transposed matrix at `(k, e)`. -/
theorem transposed_at (W : S1024x1024.Idx → EReal) (k e : Fin 1024) :
    transpose S1024x1024 [1, 0] W transposes_S1024x1024_S1024x1024_1_0 (ix2 k e) = W (ix2 e k) :=
  transpose_apply _ W _ _ _ (fun a => by
    match a with
    | ⟨0, _⟩ => rfl
    | ⟨1, _⟩ => rfl)

/-- A bias row at `(0, e)`. -/
theorem biasRow_at (b : S1024.Idx → EReal) (e : Fin 1024) :
    shapeCast S1x1024 b shapeCasts_S1024_S1x1024 (ix2 (0 : Fin 1) e) = b (ix1 e) :=
  shapeCast_apply b _ _ _ (by
    rw [Shape.rowMajor_val_one, Shape.rowMajor_val_two]
    show e.val = 0 * 1024 + e.val
    omega)

/-- A projection's rows at row `(b, t)` and feature `f`. -/
theorem projRows_at (x : S2x2048x1024.Idx → EReal) (W : S1024x1024.Idx → EReal) (bias : S1024.Idx → EReal)
    (b : Fin 2) (t : Fin 2048) (f : Fin 1024) : projRows x W bias (ix2 (rowOf b t) f) = proj x W bias b t f := by
  show (∑ k : Fin 1024, shapeCast S4096x1024 x shapeCasts_S2x2048x1024_S4096x1024 (ix2 (rowOf b t) k)
      * transpose S1024x1024 [1, 0] W transposes_S1024x1024_S1024x1024_1_0 (ix2 k f))
      + shapeCast S1x1024 bias shapeCasts_S1024_S1x1024 (ix2 (0 : Fin 1) f) = _
  exact congrArg₂ (· + ·) (Finset.sum_congr rfl fun k _ => congrArg₂ (· * ·) (flatten_at x b t k) (transposed_at W k f))
    (biasRow_at bias f)

/-- Rows split into heads, at `(b, h, t, d)`. -/
theorem splitHeads_at (y : S4096x1024.Idx → EReal) (b : Fin 2) (h : Fin 16) (t : Fin 2048) (d : Fin 64) :
    splitHeads y (ix4 b h t d) = y (ix2 (rowOf b t) (feat h d)) := by
  unfold splitHeads
  refine (transpose_apply _ _ _ (ix4 b h t d) (ix4 b t h d) (fun a => by
    match a with
    | ⟨0, _⟩ => rfl
    | ⟨1, _⟩ => rfl
    | ⟨2, _⟩ => rfl
    | ⟨3, _⟩ => rfl)).trans ?_
  exact shapeCast_apply y _ _ _ (by
    rw [Shape.rowMajor_val_two, Shape.rowMajor_val_four]
    show (b.val * 2048 + t.val) * 1024 + (h.val * 64 + d.val) = ((b.val * 2048 + t.val) * 16 + h.val) * 64 + d.val
    omega)

/-- Heads merged into rows, at row `(b, t)` and feature `k`. -/
theorem mergeHeads_at (z : S2x16x2048x64.Idx → EReal) (b : Fin 2) (t : Fin 2048) (k : Fin 1024) :
    mergeHeads z (ix2 (rowOf b t) k) = z (ix4 b (headOf k) t (coordOf k)) := by
  unfold mergeHeads
  refine (shapeCast_apply _ _ (ix2 (rowOf b t) k) (ix4 b t (headOf k) (coordOf k)) (by
    rw [Shape.rowMajor_val_two, Shape.rowMajor_val_four]
    show ((b.val * 2048 + t.val) * 16 + k.val / 64) * 64 + k.val % 64 = (b.val * 2048 + t.val) * 1024 + k.val
    omega)).trans ?_
  exact transpose_apply _ z _ _ _ (fun a => by
    match a with
    | ⟨0, _⟩ => rfl
    | ⟨1, _⟩ => rfl
    | ⟨2, _⟩ => rfl
    | ⟨3, _⟩ => rfl)

/-- The program's function of the nine arguments is the attention layer. -/
theorem kernelLayer_eq (x : S2x2048x1024.Idx → EReal) (Wq : S1024x1024.Idx → EReal) (bq : S1024.Idx → EReal)
    (Wk : S1024x1024.Idx → EReal) (bk : S1024.Idx → EReal) (Wv : S1024x1024.Idx → EReal) (bv : S1024.Idx → EReal)
    (Wo : S1024x1024.Idx → EReal) (bo : S1024.Idx → EReal) :
    kernelLayer x Wq bq Wk bk Wv bv Wo bo = attention x Wq bq Wk bk Wv bv Wo bo := by
  funext i
  obtain ⟨b, t, e, rfl⟩ : ∃ (b : Fin 2) (t : Fin 2048) (e : Fin 1024), i = ix3 b t e := ⟨i 0, i 1, i 2, eq_ix3 i⟩
  unfold kernelLayer
  rw [unflatten_at]
  show (∑ k : Fin 1024, mergeHeads (heads (splitHeads (projRows x Wq bq)) (splitHeads (projRows x Wk bk)) (splitHeads (projRows x Wv bv))) (ix2 (rowOf b t) k)
      * transpose S1024x1024 [1, 0] Wo transposes_S1024x1024_S1024x1024_1_0 (ix2 k e))
      + shapeCast S1x1024 bo shapeCasts_S1024_S1x1024 (ix2 (0 : Fin 1) e) = _
  show _ = (∑ k : Fin 1024, context x Wq bq Wk bk Wv bv b (headOf k) t (coordOf k) * Wo (ix2 e k)) + bo (ix1 e)
  refine congrArg₂ (· + ·) (Finset.sum_congr rfl fun k _ => congrArg₂ (· * ·) ?_ (transposed_at Wo k e)) (biasRow_at bo e)
  refine (mergeHeads_at _ b t k).trans ?_
  show (∑ j : Fin 2048,
      Ideal.div (Ideal.exp (rowScore (splitHeads (projRows x Wq bq)) (splitHeads (projRows x Wk bk)) b (headOf k) t j))
        (∑ j' : Fin 2048, Ideal.exp (rowScore (splitHeads (projRows x Wq bq)) (splitHeads (projRows x Wk bk)) b (headOf k) t j'))
      * splitHeads (projRows x Wv bv) (ix4 b (headOf k) j (coordOf k))) = _
  unfold rowScore
  simp only [splitHeads_at, projRows_at]
  rfl

end Cert.MHA

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.PayloadsAtIndex.lean ====
/-
  The kernel bodies read at an index, over the extended reals.

  A linear body stores, at (p, q), the sum over k of x (p, k) · w (k, q) plus the bias row's entry q: the casts to the
  operands' own shapes change nothing, the narrowing to sixteen bits is the identity on the extended reals, the
  product into a zero accumulator is the plain sum, and the bias row is repeated down the rows.

  The attention body stores, at (0, 0, r, d), the sum over the key positions j of
  exp (s r j) / (∑ j', exp (s r j')) · v (0, 0, j, d), where s r j = (∑ e, q (0, 0, r, e) · k (0, 0, j, e)) · ⅛:
  the two leading unit axes are dropped and put back by casts that keep the row-major position, the keys are
  transposed before the first product, the scalar word 0x3E000000 is ⅛, the row sums of the exponentials are
  taken along the key axis, made a column and repeated along the row, and the second product contracts the key axis.
-/
import proofs.«145692_j50697793962418_1_alg».proof.Proof.Gen.KernelIdeal.Skeleton
import proofs.«145692_j50697793962418_1_alg».proof.Proof.AttentionSpec
import proofs.«145692_j50697793962418_1_alg».proof.Proof.LibPlainDot
import proofs.«145692_j50697793962418_1_alg».proof.Proof.LibAxisSums
import proofs.«145692_j50697793962418_1_alg».proof.Proof.LibColumnCast
import proofs.«145692_j50697793962418_1_alg».proof.Proof.LibColumnBroadcast
import Idealize.ShloMosaic.Lib.ValueLayout

noncomputable section

namespace Cert.MHA.Pay

open Idealize.ShloMosaic Idealize.ShloMosaic.ValueIdx Cert.KernelIdeal Cert.KernelIdeal.Gen Cert.Lib

/-! ## Two leading unit axes dropped or added by a shape cast -/

section Casts
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`, whatever the unit
coordinates `u`, `w`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

end Casts

/-! ## The linear body -/

/-- THE LINEAR BODY AT (p, q): the row of `x` against the column of `w`, plus the bias row's entry. -/
theorem linear_at (x : Vec Ideal S512x1024 .f32) (w : Vec Ideal S1024x1024 .f32) (bias : Vec Ideal S1x1024 .f32)
    (p : Fin 512) (q : Fin 1024) :
    k0_pay1 (F := Ideal) x w bias (ix2 p q)
      = (∑ k : Fin 1024, x (ix2 p k) * w (ix2 k q)) + bias (ix2 0 q) := by
  unfold k0_pay1
  refine (addf_apply _ _ _).trans ?_
  refine congrArg₂ (· + ·) ?_ ?_
  · refine (matmul_zero_apply dot_S512x1024_S1024x1024_S512x1024_1_0_0_1_n_n_wf none _ _ p q).trans ?_
    refine Finset.sum_congr rfl fun k _ => ?_
    exact congrArg₂ (· * ·) (congrFun (shapeCast_self x _) _) (congrFun (shapeCast_self w _) _)
  · refine (broadcastTo_1b_ab_apply _ _ p q).trans ?_
    exact congrFun (shapeCast_self bias _) _

/-- The four linear bodies are one and the same term. -/
theorem k1_eq : @k1_pay1 = @k0_pay1 := rfl
theorem k2_eq : @k2_pay1 = @k0_pay1 := rfl
theorem k4_eq : @k4_pay1 = @k0_pay1 := rfl

theorem linear1_at (x : Vec Ideal S512x1024 .f32) (w : Vec Ideal S1024x1024 .f32) (bias : Vec Ideal S1x1024 .f32)
    (p : Fin 512) (q : Fin 1024) :
    k1_pay1 (F := Ideal) x w bias (ix2 p q)
      = (∑ k : Fin 1024, x (ix2 p k) * w (ix2 k q)) + bias (ix2 0 q) := linear_at x w bias p q

theorem linear2_at (x : Vec Ideal S512x1024 .f32) (w : Vec Ideal S1024x1024 .f32) (bias : Vec Ideal S1x1024 .f32)
    (p : Fin 512) (q : Fin 1024) :
    k2_pay1 (F := Ideal) x w bias (ix2 p q)
      = (∑ k : Fin 1024, x (ix2 p k) * w (ix2 k q)) + bias (ix2 0 q) := linear_at x w bias p q

theorem linear4_at (x : Vec Ideal S512x1024 .f32) (w : Vec Ideal S1024x1024 .f32) (bias : Vec Ideal S1x1024 .f32)
    (p : Fin 512) (q : Fin 1024) :
    k4_pay1 (F := Ideal) x w bias (ix2 p q)
      = (∑ k : Fin 1024, x (ix2 p k) * w (ix2 k q)) + bias (ix2 0 q) := linear_at x w bias p q

/-! ## The attention body -/

/-- The exponentials of the scaled scores, as the body computes them: one `[512, 2048]` array. -/
def expScores (q : Vec Ideal S1x1x512x64 .f32) (k : Vec Ideal S1x1x2048x64 .f32) : FVec Ideal S512x2048 .f32 :=
  exp (mulf
    (matmul dot_S512x64_S64x2048_S512x2048_1_0_0_1_n_n none
      (truncf .bf16 (shapeCast S512x64 q shapeCasts_S1x1x512x64_S512x64) bitsLt_bf16_f32)
      (transpose S64x2048 [1, 0]
        (truncf .bf16 (shapeCast S2048x64 k shapeCasts_S1x1x2048x64_S2048x64) bitsLt_bf16_f32)
        transposes_S2048x64_p1_0_S64x2048)
      (constant S512x2048 .f32 0x00000000#32))
    (broadcast S512x2048 (Scalar.ofBits .f32 0x3E000000#32)))

/-- At (r, j): the exponential of the query row against the key row, times ⅛. -/
theorem expScores_at (q : Vec Ideal S1x1x512x64 .f32) (k : Vec Ideal S1x1x2048x64 .f32) (r : Fin 512) (j : Fin 2048) :
    expScores q k (ix2 r j) = Ideal.exp ((∑ e : Fin 64, q (ix4 0 0 r e) * k (ix4 0 0 j e)) * Cert.MHA.scale) := by
  unfold expScores
  refine congrArg Ideal.exp ?_
  refine (mulf_apply _ _ _).trans ?_
  refine congrArg₂ (· * ·) ?_ Cert.MHA.ofBits_eighth
  refine (matmul_zero_apply dot_S512x64_S64x2048_S512x2048_1_0_0_1_n_n_wf none _ _ r j).trans ?_
  refine Finset.sum_congr rfl fun e _ => ?_
  refine congrArg₂ (· * ·) (shapeCast_11ab_ab_apply q _ r e) ?_
  refine (transpose_ix2_apply _ _ e j).trans ?_
  exact shapeCast_11ab_ab_apply k _ j e

/-- THE ATTENTION BODY AT (0, 0, r, d): the softmax weights of query row `r` against the value column `d`. -/
theorem attn_at (q : Vec Ideal S1x1x512x64 .f32) (k v : Vec Ideal S1x1x2048x64 .f32) (r : Fin 512) (d : Fin 64) :
    k3_pay1 (F := Ideal) q k v (ix4 0 0 r d)
      = ∑ j : Fin 2048,
          Ideal.div (Ideal.exp ((∑ e : Fin 64, q (ix4 0 0 r e) * k (ix4 0 0 j e)) * Cert.MHA.scale))
            (∑ j' : Fin 2048, Ideal.exp ((∑ e : Fin 64, q (ix4 0 0 r e) * k (ix4 0 0 j' e)) * Cert.MHA.scale))
          * v (ix4 0 0 j d) := by
  unfold k3_pay1
  refine (shapeCast_ab_11ab_apply _ _ 0 0 r d).trans ?_
  refine (matmul_zero_apply dot_S512x2048_S2048x64_S512x64_1_0_0_1_n_n_wf none _ _ r d).trans ?_
  refine Finset.sum_congr rfl fun j _ => ?_
  refine congrArg₂ (· * ·) ?_ (shapeCast_11ab_ab_apply v _ j d)
  refine congrArg₂ Ideal.div (expScores_at q k r j) ?_
  refine (broadcastTo_a1_ab_apply _ _ r j).trans ?_
  refine (shapeCast_a_a1_apply _ _ r 0).trans ?_
  refine (rowSum_apply (expScores q k) _ _ _ _ r).trans ?_
  exact Finset.sum_congr rfl fun j' _ => expScores_at q k r j'

end Cert.MHA.Pay

end
-- ==== Proof.ReferenceIsAttention.lean ====
/-
  The reference program computes multi-head attention.

  The reference is a chain of array operations: three projections `x · Wᵀ + bias`, each reshaped from
  `[2, 2048, 1024]` to `[2, 2048, 16, 64]` and transposed to `[2, 16, 2048, 64]` (feature `64·h + d` becomes
  coordinate `d` of head `h`); the scores `q · k` divided by `√64`; their exponentials divided by the sum of the
  exponentials along the key axis; the weighted sum of the value rows; the inverse transpose and reshape (feature `k`
  reads head `k / 64`, coordinate `k % 64`); the output projection. Each group of stages is read at explicit
  coordinates and identified with the corresponding entry of `Cert.MHA`.
-/
import proofs.«145692_j50697793962418_1_alg».proof.Proof.Gen.ReferenceIdeal.Read
import proofs.«145692_j50697793962418_1_alg».proof.Proof.AttentionSpec

noncomputable section

namespace Cert.MHA.Ref

open Cert.ReferenceIdeal Cert.ReferenceIdeal.Gen Cert.ReferenceIdeal.Read Cert.MHA
open Idealize.ShloMosaic Idealize.ShloMosaic.ValueIdx

/-! ## Index equations -/

/-- The transpose `[2, 2048, 16, 64] → [2, 16, 2048, 64]` reads position `(b, t, h, d)` at `(b, h, t, d)`. -/
theorem idx5_ix (b : Fin 2) (h : Fin 16) (t : Fin 2048) (d : Fin 64) :
    idx_main_v5 (ix4 b h t d) = ix4 b t h d :=
  funext fun a => Fin.ext (by match a with | ⟨0, _⟩ => rfl | ⟨1, _⟩ => rfl | ⟨2, _⟩ => rfl | ⟨3, _⟩ => rfl)

/-- The reshape `[2, 2048, 1024] → [2, 2048, 16, 64]` reads feature `64·h + d` at `(h, d)`. -/
theorem idx4_ix (b : Fin 2) (t : Fin 2048) (h : Fin 16) (d : Fin 64) :
    idx_main_v4 (ix4 b t h d) = ix3 b t (feat h d) := by
  have hb := b.isLt; have ht := t.isLt; have hh := h.isLt; have hd := d.isLt
  exact funext fun a => Fin.ext (by
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => show (((b.val * 2048 + t.val) * 16 + h.val) * 64 + d.val) % 1024 = h.val * 64 + d.val; omega)

theorem lidx0_ix (b : Fin 2) (t : Fin 2048) (e k : Fin 1024) : lidx_main_v0 (ix3 b t e) k = ix3 b t k :=
  funext fun a => Fin.ext (by match a with | ⟨0, _⟩ => rfl | ⟨1, _⟩ => rfl | ⟨2, _⟩ => rfl)

theorem ridx0_ix (b : Fin 2) (t : Fin 2048) (e k : Fin 1024) : ridx_main_v0 (ix3 b t e) k = ix2 e k :=
  funext fun a => Fin.ext (by match a with | ⟨0, _⟩ => rfl | ⟨1, _⟩ => rfl)

theorem idx12_ix (b : Fin 2) (t : Fin 2048) (e : Fin 1024) : idx_main_v1 (idx_main_v2 (ix3 b t e)) = ix1 e :=
  funext fun a => Fin.ext (by match a with | ⟨0, _⟩ => rfl)

/-! ## The projections -/

/-- The first projection chain, at head coordinates, is the projection of the specification. -/
theorem v5_eq (x0 : Act) (x1 : Mat) (x2 : Bias) (b : Fin 2) (h : Fin 16) (t : Fin 2048) (d : Fin 64) :
    val_main_v5 (F := Ideal) x0 x1 x2 (ix4 b h t d) = proj x0 x1 x2 b t (feat h d) := by
  rw [val_main_v5_apply, idx5_ix, val_main_v4_apply, idx4_ix, val_main_v3_apply, val_main_v0_apply,
    val_main_v2_apply, val_main_v1_apply, idx12_ix]
  simp only [lidx0_ix, ridx0_ix]
  rfl

/-- The second and third projection chains are the first one applied to other arguments. -/
theorem v11_eq (x0 : Act) (x3 : Mat) (x4 : Bias) (b : Fin 2) (h : Fin 16) (t : Fin 2048) (d : Fin 64) :
    val_main_v11 (F := Ideal) x0 x3 x4 (ix4 b h t d) = proj x0 x3 x4 b t (feat h d) :=
  (congrFun (show val_main_v11 (F := Ideal) x0 x3 x4 = val_main_v5 (F := Ideal) x0 x3 x4 from rfl) _).trans
    (v5_eq x0 x3 x4 b h t d)

theorem v17_eq (x0 : Act) (x5 : Mat) (x6 : Bias) (b : Fin 2) (h : Fin 16) (t : Fin 2048) (d : Fin 64) :
    val_main_v17 (F := Ideal) x0 x5 x6 (ix4 b h t d) = proj x0 x5 x6 b t (feat h d) :=
  (congrFun (show val_main_v17 (F := Ideal) x0 x5 x6 = val_main_v5 (F := Ideal) x0 x5 x6 from rfl) _).trans
    (v5_eq x0 x5 x6 b h t d)

/-! ## The scores -/

theorem lidx18_ix (b : Fin 2) (h : Fin 16) (t j : Fin 2048) (k : Fin 64) :
    lidx_main_v18 (ix4 b h t j) k = ix4 b h t k :=
  funext fun a => Fin.ext (by match a with | ⟨0, _⟩ => rfl | ⟨1, _⟩ => rfl | ⟨2, _⟩ => rfl | ⟨3, _⟩ => rfl)

theorem ridx18_ix (b : Fin 2) (h : Fin 16) (t j : Fin 2048) (k : Fin 64) :
    ridx_main_v18 (ix4 b h t j) k = ix4 b h j k :=
  funext fun a => Fin.ext (by match a with | ⟨0, _⟩ => rfl | ⟨1, _⟩ => rfl | ⟨2, _⟩ => rfl | ⟨3, _⟩ => rfl)

/-- The scores divided by `√64` are the scaled scores of the specification. -/
theorem v21_eq (x0 : Act) (x1 : Mat) (x2 : Bias) (x3 : Mat) (x4 : Bias) (b : Fin 2) (h : Fin 16) (t j : Fin 2048) :
    val_main_v21 (F := Ideal) x0 x1 x2 x3 x4 (ix4 b h t j) = score x0 x1 x2 x3 x4 b h t j := by
  rw [val_main_v21_apply, val_main_v18_apply, val_main_v20_apply, val_main_v19_apply, val_main_cst_apply]
  simp only [lidx18_ix, ridx18_ix, v5_eq, v11_eq]
  rw [Ideal.hostDivf_def, Ideal.hostUnary_sqrt_def, Ideal.ofBits_def, div_sqrt_64]
  rfl

/-! ## The softmax weights -/

theorem idx23_ix (b : Fin 2) (h : Fin 16) (t j k : Fin 2048) :
    idx_main_v23 (idx_main_v24 (idx_main_v25 (ix4 b h t j))) k = ix4 b h t k :=
  funext fun a => Fin.ext (by match a with | ⟨0, _⟩ => rfl | ⟨1, _⟩ => rfl | ⟨2, _⟩ => rfl | ⟨3, _⟩ => rfl)

/-- The exponential of a score divided by the sum of the exponentials along the key axis. -/
theorem v26_eq (x0 : Act) (x1 : Mat) (x2 : Bias) (x3 : Mat) (x4 : Bias) (b : Fin 2) (h : Fin 16) (t j : Fin 2048) :
    val_main_v26 (F := Ideal) x0 x1 x2 x3 x4 (ix4 b h t j) = weight x0 x1 x2 x3 x4 b h t j := by
  rw [val_main_v26_apply, val_main_v25_apply, val_main_v24_apply, val_main_v23_apply, val_main_cst_0_apply]
  simp only [val_main_v22_apply, idx23_ix, v21_eq]
  rw [Ideal.hostDivf_def, Ideal.ofBits_def, ofBits_zero, zero_add]
  rfl

/-! ## The contexts -/

theorem lidx27_ix (b : Fin 2) (h : Fin 16) (t : Fin 2048) (d : Fin 64) (k : Fin 2048) :
    lidx_main_v27 (ix4 b h t d) k = ix4 b h t k :=
  funext fun a => Fin.ext (by match a with | ⟨0, _⟩ => rfl | ⟨1, _⟩ => rfl | ⟨2, _⟩ => rfl | ⟨3, _⟩ => rfl)

theorem ridx27_ix (b : Fin 2) (h : Fin 16) (t : Fin 2048) (d : Fin 64) (k : Fin 2048) :
    ridx_main_v27 (ix4 b h t d) k = ix4 b h k d :=
  funext fun a => Fin.ext (by match a with | ⟨0, _⟩ => rfl | ⟨1, _⟩ => rfl | ⟨2, _⟩ => rfl | ⟨3, _⟩ => rfl)

/-- The weighted sum of the value rows. -/
theorem v27_eq (x0 : Act) (x1 : Mat) (x2 : Bias) (x3 : Mat) (x4 : Bias) (x5 : Mat) (x6 : Bias)
    (b : Fin 2) (h : Fin 16) (t : Fin 2048) (d : Fin 64) :
    val_main_v27 (F := Ideal) x0 x1 x2 x3 x4 x5 x6 (ix4 b h t d) = context x0 x1 x2 x3 x4 x5 x6 b h t d := by
  rw [val_main_v27_apply]
  simp only [lidx27_ix, ridx27_ix, v26_eq, v17_eq]
  rfl

/-- Merging the heads: feature `k` of the merged array is coordinate `k % 64` of head `k / 64`. -/
theorem idx29_ix (b : Fin 2) (t : Fin 2048) (k : Fin 1024) :
    idx_main_v28 (idx_main_v29 (ix3 b t k)) = ix4 b (headOf k) t (coordOf k) := by
  have hb := b.isLt; have ht := t.isLt; have hk := k.isLt
  exact funext fun a => Fin.ext (by
    match a with
    | ⟨0, _⟩ => show ((b.val * 2048 + t.val) * 1024 + k.val) / 2097152 = b.val; omega
    | ⟨1, _⟩ => show ((b.val * 2048 + t.val) * 1024 + k.val) / 64 % 16 = k.val / 64; omega
    | ⟨2, _⟩ => show ((b.val * 2048 + t.val) * 1024 + k.val) / 1024 % 2048 = t.val; omega
    | ⟨3, _⟩ => show ((b.val * 2048 + t.val) * 1024 + k.val) % 64 = k.val % 64; omega)

theorem v29_eq (x0 : Act) (x1 : Mat) (x2 : Bias) (x3 : Mat) (x4 : Bias) (x5 : Mat) (x6 : Bias)
    (b : Fin 2) (t : Fin 2048) (k : Fin 1024) :
    val_main_v29 (F := Ideal) x0 x1 x2 x3 x4 x5 x6 (ix3 b t k)
      = context x0 x1 x2 x3 x4 x5 x6 b (headOf k) t (coordOf k) := by
  rw [val_main_v29_apply, val_main_v28_apply, idx29_ix, v27_eq]

/-! ## The output projection -/

theorem lidx30_ix (b : Fin 2) (t : Fin 2048) (e k : Fin 1024) : lidx_main_v30 (ix3 b t e) k = ix3 b t k :=
  funext fun a => Fin.ext (by match a with | ⟨0, _⟩ => rfl | ⟨1, _⟩ => rfl | ⟨2, _⟩ => rfl)

theorem ridx30_ix (b : Fin 2) (t : Fin 2048) (e k : Fin 1024) : ridx_main_v30 (ix3 b t e) k = ix2 e k :=
  funext fun a => Fin.ext (by match a with | ⟨0, _⟩ => rfl | ⟨1, _⟩ => rfl)

theorem idx3132_ix (b : Fin 2) (t : Fin 2048) (e : Fin 1024) : idx_main_v31 (idx_main_v32 (ix3 b t e)) = ix1 e :=
  funext fun a => Fin.ext (by match a with | ⟨0, _⟩ => rfl)

/-- The reference program's result is the attention layer of the specification. -/
theorem reference_is_attention
    (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) :
    val_main_v33 (F := Ideal) x0 x1 x2 x3 x4 x5 x6 x7 x8 = attention x0 x1 x2 x3 x4 x5 x6 x7 x8 := by
  funext i
  obtain ⟨b, t, e, rfl⟩ : ∃ (b : Fin 2) (t : Fin 2048) (e : Fin 1024), i = ix3 b t e := ⟨i 0, i 1, i 2, eq_ix3 i⟩
  rw [val_main_v33_apply, val_main_v30_apply, val_main_v32_apply, val_main_v31_apply, idx3132_ix]
  simp only [lidx30_ix, ridx30_ix]
  simp only [v29_eq x0 x1 x2 x3 x4 x5 x6]
  rfl

end Cert.MHA.Ref

end
-- ==== Proof.lean ====
/-
  Multi-head attention: the kernel's five launches against the reference's host program, over the extended reals.

  Both programs compute, entry by entry, the layer `Cert.MHA.attention` of the nine arguments: projections
  `x · Wᵀ + b`, per-head scores `(q · k) · ⅛`, weights `exp s / ∑ exp s`, contexts `∑ weight · v`, and the output projection.
  The kernel side: every execution ends with the result array at the fold of @main's eleven segments (`run_result`),
  that fold is the program's function of the arguments (`result_value`: each launch's blocks are restrictions of one
  whole-array function, each host stretch a layout operation), and that function is the layer (`kernelLayer_eq`).
  The reference side: its run ends at its operations' composed term, which read index by index is the layer
  (`reference_is_attention`); its division by `√64` is the kernel's multiplication by `⅛` on every extended real.
  No law used here needs a finite operand: the sums are taken in the same order and the products with the same factors
  on both sides, so the precondition is not opened. The ideal pass rewrote nothing, so `preserves` is trivial.
-/
import proofs.«145692_j50697793962418_1_alg».proof.Defs
import proofs.«145692_j50697793962418_1_alg».proof.Proof.Gen.Kernel
import proofs.«145692_j50697793962418_1_alg».proof.Proof.Gen.Kernel.Skeleton
import proofs.«145692_j50697793962418_1_alg».proof.Proof.Gen.Kernel.Launch
import proofs.«145692_j50697793962418_1_alg».proof.Proof.Gen.Kernel.Points
import proofs.«145692_j50697793962418_1_alg».proof.Proof.Gen.Kernel.Frame
import proofs.«145692_j50697793962418_1_alg».proof.Proof.Gen.KernelIdeal
import proofs.«145692_j50697793962418_1_alg».proof.Proof.Gen.KernelIdeal.Skeleton
import proofs.«145692_j50697793962418_1_alg».proof.Proof.Gen.KernelIdeal.Launch
import proofs.«145692_j50697793962418_1_alg».proof.Proof.Gen.KernelIdeal.Points
import proofs.«145692_j50697793962418_1_alg».proof.Proof.Gen.KernelIdeal.Frame
import proofs.«145692_j50697793962418_1_alg».proof.Proof.Gen.ReferenceIdeal
import proofs.«145692_j50697793962418_1_alg».proof.Proof.Gen.Pre_finite_inputs
import proofs.«145692_j50697793962418_1_alg».proof.Proof.Gen.ReferenceIdeal.Run
import proofs.«145692_j50697793962418_1_alg».proof.Proof.Gen.ReferenceIdeal.Read
import proofs.«145692_j50697793962418_1_alg».proof.Proof.KernelRun
import proofs.«145692_j50697793962418_1_alg».proof.Proof.KernelValue
import proofs.«145692_j50697793962418_1_alg».proof.Proof.KernelIsAttention
import proofs.«145692_j50697793962418_1_alg».proof.Proof.PayloadsAtIndex
import proofs.«145692_j50697793962418_1_alg».proof.Proof.ReferenceIsAttention
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the attention layer of the shared arguments. -/
theorem algebraic : Cert.algebraic_KernelIdeal_ReferenceIdeal := by
  intro m ρ m' ρ' _ hagree
  refine ⟨fun c => Cert.MHA.attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.MHA.Kernel.run_result (F := Ideal) m ρ)
    rw [Cert.MHA.Kernel.result_value m ρ Cert.MHA.Pay.linear_at Cert.MHA.Pay.linear1_at Cert.MHA.Pay.linear2_at
      Cert.MHA.Pay.attn_at Cert.MHA.Pay.linear4_at c]
    exact Cert.MHA.kernelLayer_eq _ _ _ _ _ _ _ _ _
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [e0, e1, e2, e3, e4, e5, e6, e7, e8]
    exact Cert.MHA.Ref.reference_is_attention _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
